-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S_S_d : S_.ReducesTo [] S_

variable [Facts]

def fn_part1 {F : FTy → Type} [FloatOps F] (main_arg5 : FVec F S_ .f32) (main_arg6 : FVec F S_ .f32) (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  let main_v18 : FVec F S_ .f32 := Host.absf main_arg5
  let main_cst_6 : FVec F S_ .f32 := constant S_ .f32 0x7F800000#32
  let main_v19 : IVec S_ 1 := cmpf .olt main_v18 main_cst_6
  let main_c_7 : IVec S_ 1 := constantI S_ 1 1#1
  let main_v20 : IVec S_ 1 := (fun x v => Host.reduce IntOp.andi x v reducesTo_S_S_d h_S_) main_v19 main_c_7
  let main_v21 : IVec S_ 1 := andi main_v17 main_v20
  let main_v22 : FVec F S_ .f32 := Host.absf main_arg6
  let main_cst_8 : FVec F S_ .f32 := constant S_ .f32 0x7F800000#32
  let main_v23 : IVec S_ 1 := cmpf .olt main_v22 main_cst_8
  let main_c_9 : IVec S_ 1 := constantI S_ 1 1#1
  let main_v24 : IVec S_ 1 := (fun x v => Host.reduce IntOp.andi x v reducesTo_S_S_d h_S_) main_v23 main_c_9
  let main_v25 : IVec S_ 1 := andi main_v21 main_v24
  main_v25

def fn {F : FTy → Type} [FloatOps F] (main_arg0 : FVec F S100000x128 .f32) (main_arg1 : IVec S2x1600000 32) (main_arg2 : FVec F S128x128 .f32) (main_arg3 : FVec F S128 .f32) (main_arg4 : FVec F S_ .f32) (main_arg5 : FVec F S_ .f32) (main_arg6 : FVec F S_ .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S_ .f32 := Host.absf main_arg4
  let main_cst_4 : FVec F S_ .f32 := constant S_ .f32 0x7F800000#32
  let main_v15 : IVec S_ 1 := cmpf .olt main_v14 main_cst_4
  let main_c_5 : IVec S_ 1 := constantI S_ 1 1#1
  fn_part1 (F := F) main_arg5 main_arg6 main_v13 main_v15 main_c_5
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩
abbrev S1x1600000 : Shape := ⟨2, ![1, 1600000]⟩
abbrev S1600000 : Shape := ⟨1, ![1600000]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1 : Shape := ⟨1, ![1]⟩
abbrev S3 : Shape := ⟨1, ![3]⟩
abbrev S1x3 : Shape := ⟨2, ![1, 3]⟩
abbrev S1x128 : Shape := ⟨2, ![1, 128]⟩
abbrev S5000x128 : Shape := ⟨2, ![5000, 128]⟩
abbrev S5000x1 : Shape := ⟨2, ![5000, 1]⟩
abbrev S1x1 : Shape := ⟨2, ![1, 1]⟩

abbrev nBuf : Space → Nat
  | .hbm => 69
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S100000x128, .f32⟩
  | .hbm, ⟨23, _⟩ => ⟨S100000x128, .f32⟩
  | .hbm, ⟨24, _⟩ => ⟨S100000x128, .bf16⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .bf16⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S100000x128, .bf16⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .bf16⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S1, .f32⟩
  | .hbm, ⟨63, _⟩ => ⟨S1, .f32⟩
  | .hbm, ⟨64, _⟩ => ⟨S1, .f32⟩
  | .hbm, ⟨65, _⟩ => ⟨S3, .f32⟩
  | .hbm, ⟨66, _⟩ => ⟨S1x3, .f32⟩
  | .hbm, ⟨67, _⟩ => ⟨S1x128, .f32⟩
  | .hbm, ⟨68, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x1, .f32⟩
  | .local _ .vmem, ⟨7, _⟩ => ⟨S5000x1, .f32⟩
  | .local _ .vmem, ⟨8, _⟩ => ⟨S128x128, .f32⟩
  | .local _ .vmem, ⟨9, _⟩ => ⟨S1x128, .f32⟩
  | .local _ .vmem, ⟨10, _⟩ => ⟨S1x3, .f32⟩
  | .local _ .vmem, ⟨11, _⟩ => ⟨S5000x128, .f32⟩
  | .local _ .vmem, ⟨12, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_4 : Ref sig .tc := ⟨.hbm, 48, rfl⟩
abbrev main_v35 : Ref sig .tc := ⟨.hbm, 49, rfl⟩
abbrev main_v36 : Ref sig .tc := ⟨.hbm, 50, rfl⟩
abbrev main_c_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S100000x1_S100000x128_0_1 : S100000x1.BroadcastsInDim S100000x128 (![0, 1] : Fin 2 → Fin S100000x128.rank)
  bitsLt_bf16_f32 : FTy.bits .bf16 < FTy.bits .f32
  bcast_S_S100000x128 : S_.BroadcastsInDim S100000x128 (![] : Fin 0 → Fin S100000x128.rank)
  bcast_S_S1 : S_.BroadcastsInDim S1 (![] : Fin 0 → Fin S1.rank)
  concatenates_S1_S1_S1_S3_d0 : Shape.Concatenates [S1, S1, S1] S3 0
  shapeCasts_S3_S1x3 : S3.ShapeCasts S1x3
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x3_S1x3_0_0 : ∀ a, (![0, 0] : Fin 2 → Nat) a + S1x3.size a ≤ S1x3.size a
  h_S1x3 : 0 < S1x3.numel
  shapeCasts_S1x3_S1x3 : S1x3.ShapeCasts S1x3
  slices_S1x3_o0_0_S1x1 : S1x3.Slices ![0, 0] S1x1
  inpos_S1x1_p0_0 : ∀ a, (![0, 0] : Fin 2 → Nat) a < S1x1.size a
  slices_S1x3_o0_1_S1x1 : S1x3.Slices ![0, 1] S1x1
  slices_S1x3_o0_2_S1x1 : S1x3.Slices ![0, 2] S1x1
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S100000x1.size a
  hwx0_3 : ∀ i : grid0.Coords, EltTy.bits .f32 = 32 ∨ (Rect.block (s := S100000x1) S5000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x3.size a ≤ S1x3.size a
  hwx0_6 : ∀ i : grid0.Coords, EltTy.bits .f32 = 32 ∨ (Rect.block (s := S1x3) S1x3.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v45) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v51) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v50) S1x3.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v52) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩
abbrev S1x1600000 : Shape := ⟨2, ![1, 1600000]⟩
abbrev S1600000 : Shape := ⟨1, ![1600000]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 99
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S1600000x1, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S1600000x128, .f32⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S100000x1, .f32⟩
  | .hbm, ⟨47, _⟩ => ⟨S100000x1, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S100000x128, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000, .f32⟩
  | .hbm, ⟨63, _⟩ => ⟨S1600000x1, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x128, .f32⟩
  | .hbm, ⟨73, _⟩ => ⟨S1600000x128, .f32⟩
  | .hbm, ⟨74, _⟩ => ⟨S1600000x128, .f32⟩
  | .hbm, ⟨75, _⟩ => ⟨S_, .f32⟩
  | .hbm, ⟨76, _⟩ => ⟨S100000x128, .f32⟩
  | .hbm, ⟨77, _⟩ => ⟨S1600000x1, .i32⟩
  | .hbm, ⟨78, _⟩ => ⟨S100000x128, .f32⟩
  | .hbm, ⟨79, _⟩ => ⟨S100000x1, .f32⟩
  | .hbm, ⟨80, _⟩ => ⟨S100000x1, .f32⟩
  | .hbm, ⟨81, _⟩ => ⟨S100000x128, .f32⟩
  | .hbm, ⟨82, _⟩ => ⟨S100000x128, .f32⟩
  | .hbm, ⟨83, _⟩ => ⟨S100000x128, .f32⟩
  | .hbm, ⟨84, _⟩ => ⟨S100000x128, .f32⟩
  | .hbm, ⟨85, _⟩ => ⟨S100000x128, .f32⟩
  | .hbm, ⟨86, _⟩ => ⟨S100000x128, .f32⟩
  | .hbm, ⟨87, _⟩ => ⟨S100000x128, .f32⟩
  | .hbm, ⟨88, _⟩ => ⟨S100000x128, .f32⟩
  | .hbm, ⟨89, _⟩ => ⟨S100000x128, .f32⟩
  | .hbm, ⟨90, _⟩ => ⟨S100000x128, .f32⟩
  | .hbm, ⟨91, _⟩ => ⟨S100000x128, .f32⟩
  | .hbm, ⟨92, _⟩ => ⟨S100000x128, .f32⟩
  | .hbm, ⟨93, _⟩ => ⟨S100000x128, .f32⟩
  | .hbm, ⟨94, _⟩ => ⟨S100000x128, .f32⟩
  | .hbm, ⟨95, _⟩ => ⟨S100000x128, .f32⟩
  | .hbm, ⟨96, _⟩ => ⟨S1x128, .f32⟩
  | .hbm, ⟨97, _⟩ => ⟨S100000x128, .f32⟩
  | .hbm, ⟨98, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_6 : Ref sig .tc := ⟨.hbm, 54, rfl⟩
abbrev main_v39 : Ref sig .tc := ⟨.hbm, 55, rfl⟩
abbrev main_v40 : Ref sig .tc := ⟨.hbm, 56, rfl⟩
abbrev main_c_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_8 : Ref sig .tc := ⟨.hbm, 64, rfl⟩
abbrev main_v47 : Ref sig .tc := ⟨.hbm, 65, rfl⟩
abbrev main_v48 : Ref sig .tc := ⟨.hbm, 66, rfl⟩
abbrev main_c_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRegion.lean ====
/-
  What the one pallas_call of this program is run on and what it leaves, as data for the pipeline library's
  launch theorem: the arrays the region finds (the launch memory after the host operations before it), each
  window's block at a grid point, the output block the body stores from the seven input blocks, and the
  per-point record of what every staging buffer holds after the body.

  The grid has 20 points; point t stages rows 5000·t … 5000·t + 4999 of the three [100000,128] inputs, of the
  [100000,1] column and of the output, and the whole of the weight matrix, the bias row and the coefficient
  row. The body reads every input block whole and stores one whole block, so the output buffer after the body
  is the body's arithmetic (the skeleton's payload) of the input blocks.
-/
import proofs.«175926_j86371792323181_2_alg».proof.Proof.Gen.Kernel.Launch
import proofs.«175926_j86371792323181_2_alg».proof.Proof.Gen.Kernel.Skeleton
import proofs.«175926_j86371792323181_2_alg».proof.Proof.Gen.Kernel.Points
import Idealize.ShloMosaic.Lib.Pipeline.FrameBody

noncomputable section

namespace Cert.Kernel.Region

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.Kernel Cert.Kernel.Gen

variable {F : FTy → Type} [FloatOps F]

variable (m : (ℓ : Loc nD τ sig) → Buf (Elt F) ℓ)

/-- Core `c`'s buffers when the region is entered: the launch memory after the host operations before it. -/
abbrev V (c : Dev nD) (b : Ref sig .tc) : Buf (Elt F) ((c : Thread nD τ).loc b) :=
  StableHlo.after hostOps0 (fun b => m (c, b)) b

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! ## The body's accesses: every one the whole staging buffer -/

abbrev rBlk : Rect S5000x128 := Rect.unit (s := S5000x128) ![0, 0] S5000x128.size inb_S5000x128_S5000x128_0_0
abbrev rCol : Rect S5000x1 := Rect.unit (s := S5000x1) ![0, 0] S5000x1.size inb_S5000x1_S5000x1_0_0
abbrev rW : Rect S128x128 := Rect.unit (s := S128x128) ![0, 0] S128x128.size inb_S128x128_S128x128_0_0
abbrev rBias : Rect S1x128 := Rect.unit (s := S1x128) ![0, 0] S1x128.size inb_S1x128_S1x128_0_0
abbrev rCoef : Rect S1x3 := Rect.unit (s := S1x3) ![0, 0] S1x3.size inb_S1x3_S1x3_0_0

/-- The output staging buffer after the body, from the contents of the seven input staging buffers
    (x, Lx, the second aggregate, the degree column, the weights, the bias row, the coefficient row):
    its one store, of the body's arithmetic of the loaded blocks. -/
def outBlk (x0 x1 x2 : Vec F S5000x128 .f32) (x3 : Vec F S5000x1 .f32) (x4 : Vec F S128x128 .f32)
    (x5 : Vec F S1x128 .f32) (x6 : Vec F S1x3 .f32) : Vec F S5000x128 .f32 :=
  View.canon [⟨rBlk, k0_pay1 (View.ld x0 rBlk) (View.ld x1 rBlk) (View.ld x2 rBlk) (View.ld x3 rCol)
    (View.ld x6 rCoef) (View.ld x4 rW) (View.ld x5 rBias)⟩]

/-- The pipeline's proof data on core `c`: the arrays as the region finds them; after the body at point `t`
    each input's buffer still at its block and the output's at `outBlk` of the input blocks; nothing owed,
    full shares, the invariant the scoped rest untouched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlk (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents (projected, never unfolded). -/
theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
/-- What the body leaves in the output's staging buffer at point `t`. -/
theorem after_out (c : Dev nD) (t : Fin cfg0.N) : (dats m 0 c).after 7 t =
    outBlk (iblk m c 0 t) (iblk m c 1 t) (iblk m c 2 t) (iblk m c 3 t) (iblk m c 4 t) (iblk m c 5 t) (iblk m c 6 t) := by
  dsimp only [dats]

end Cert.Kernel.Region

end
-- ==== Proof.KernelFrame.lean ====
/-
  The frame of the program's one pallas_call, against the pipeline library's launch theorem: @main up to the
  region (61 host operations, none of which writes an argument array), each input window's staging buffer at
  its block at every grid point whether the pipeline fetched it there or not (the weight matrix, the bias row
  and the coefficient row are fetched at the first point only: their block index never moves), the body's
  triple on whole staging buffers, the body obligation at a generic point, the run, and the frame claim's
  post read off the run's: a staged argument is an input window's array, never written back; an argument no
  window stages bypasses the region and is read back as the region found it.

  The body loads the seven input buffers whole, loads the output buffer once without using the value, and
  stores one whole block: the output buffer then reads the stored block whatever it held before.
-/
import proofs.«175926_j86371792323181_2_alg».proof.Proof.KernelRegion
import Idealize.ShloMosaic.Lib.Pipeline.FrameBody
import Idealize.ShloMosaic.Lib.Ring
import Idealize.ShloMosaic.Lib.Tactic

-- membership in a rectangle of these extents: the elaborator's structural look recurses once per coordinate
-- of the long axis
set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- No host operation before the region allocates. -/
theorem hostOps0_fresh : (hostOps0 : List (HloOp τ sig (Elt F))).Forall fun op => op.fresh = ∅ := by
  simp only [List.Forall]; repeat' constructor

/-- @main up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## The input windows' blocks -/

/-- Input window 0's current staging buffer holds its block at every point, fetched there or not, for any proof
    data whose array is the region-entry contents and whose body leaves the block in place: unfetched, the block
    index has not moved, so the previous point's block is this point's. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is the region-entry contents and whose body leaves the block in place: unfetched, the block
    index has not moved, so the previous point's block is this point's. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is the region-entry contents and whose body leaves the block in place: unfetched, the block
    index has not moved, so the previous point's block is this point's. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is the region-entry contents and whose body leaves the block in place: unfetched, the block
    index has not moved, so the previous point's block is this point's. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is the region-entry contents and whose body leaves the block in place: unfetched, the block
    index has not moved, so the previous point's block is this point's. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof
    data whose array is the region-entry contents and whose body leaves the block in place: unfetched, the block
    index has not moved, so the previous point's block is this point's. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof
    data whose array is the region-entry contents and whose body leaves the block in place: unfetched, the block
    index has not moved, so the previous point's block is this point's. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post read at the
    argument arrays — the two staged arguments as input windows' arrays, never written back; the other five as
    buffers no window stages — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).1 4).trans (((dats 0 c).arrAt_in 4 rfl _).trans ((hA c 4).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's triple -/

/-- The body's one store is of the whole block, so it covers the output buffer. -/
theorem cover_out (p0 : Vec F S5000x128 .f32) (y : S5000x128.Idx) :
    ∃ pc ∈ ([⟨rBlk, p0⟩] : List (View.Piece (Elt F) S5000x128 .f32)), y ∈ pc.1.set :=
  View.cover_of_tiled [⟨rBlk, p0⟩] S5000x128.size (by rfl) y

set_option maxHeartbeats 1000000 in
/-- The kernel body on whole staging memrefs, the inputs' at read contents `x0 … x6` and the output's at anything,
    runs to the continuation holding the inputs' as they were and the output's at `outBlk` of the inputs'. The load
    of the output buffer needs only that the buffer is held; its value is not used. -/
theorem sound_kernel (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x3 .f32) (harg7 : arg7.IsWhole) (arg8 : Memref sig .tc .vmem S5000x128 .f32) (harg8 : arg8.IsWhole)
    (x0 x1 x2 : Vec F S5000x128 .f32) (x3 : Vec F S5000x1 .f32) (x4 : Vec F S128x128 .f32) (x5 : Vec F S1x128 .f32) (x6 : Vec F S1x3 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (outBlk x0 x1 x2 x3 x4 x5 x6)) -∗ K ⟨⟩))
      ⊢ wp frame (wpE (defs₀ (F := F)) Variants.none c none) E (cc0__final_kernel i arg1 harg1 arg2 harg2 arg3 harg3 arg4 harg4 arg5 harg5 arg6 harg6 arg7 harg7 arg8 harg8) K := by
  simp only [cc0__final_kernel_eq_skeleton]; unfold cc0__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover_out _)

/-! ## The input buffers at the proof data -/

theorem before0 (c : Dev nD) (t : Fin cfg0.N) (d) : (dats m 0 c).before 0 t d = iblk m c 0 t :=
  before0_of m (dats m 0 c) (A_eq m c 0) (after_in0 m c) t d
theorem before1 (c : Dev nD) (t : Fin cfg0.N) (d) : (dats m 0 c).before 1 t d = iblk m c 1 t :=
  before1_of m (dats m 0 c) (A_eq m c 1) (after_in1 m c) t d
theorem before2 (c : Dev nD) (t : Fin cfg0.N) (d) : (dats m 0 c).before 2 t d = iblk m c 2 t :=
  before2_of m (dats m 0 c) (A_eq m c 2) (after_in2 m c) t d
theorem before3 (c : Dev nD) (t : Fin cfg0.N) (d) : (dats m 0 c).before 3 t d = iblk m c 3 t :=
  before3_of m (dats m 0 c) (A_eq m c 3) (after_in3 m c) t d
theorem before4 (c : Dev nD) (t : Fin cfg0.N) (d) : (dats m 0 c).before 4 t d = iblk m c 4 t :=
  before4_of m (dats m 0 c) (A_eq m c 4) (after_in4 m c) t d
theorem before5 (c : Dev nD) (t : Fin cfg0.N) (d) : (dats m 0 c).before 5 t d = iblk m c 5 t :=
  before5_of m (dats m 0 c) (A_eq m c 5) (after_in5 m c) t d
theorem before6 (c : Dev nD) (t : Fin cfg0.N) (d) : (dats m 0 c).before 6 t d = iblk m c 6 t :=
  before6_of m (dats m 0 c) (A_eq m c 6) (after_in6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so the body's triple applies; the invariant and
    the core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes
-- unfolding plain definitions in a metavariable's type
set_option backward.isDefEq.respectTransparency.types false in
/-- At the compiled mesh, for any values, from any memory with zero counters: every weakly fair execution of @main on
    the TensorCores terminates, and every final state has every array of the pipeline at what the library computes
    from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs, and its seven argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Region

end
-- ==== Proof.KernelIdealRegion.lean ====
/-
  What the one pallas_call of this program is run on and what it leaves, as data for the pipeline library's
  launch theorem: the arrays the region finds (the launch memory after the host operations before it), each
  window's block at a grid point, the output block the body stores from the seven input blocks, and the
  per-point record of what every staging buffer holds after the body.

  The grid has 20 points; point t stages rows 5000·t … 5000·t + 4999 of the three [100000,128] inputs, of the
  [100000,1] column and of the output, and the whole of the weight matrix, the bias row and the coefficient
  row. The body reads every input block whole and stores one whole block, so the output buffer after the body
  is the body's arithmetic (the skeleton's payload) of the input blocks.
-/
import proofs.«175926_j86371792323181_2_alg».proof.Proof.Gen.KernelIdeal.Launch
import proofs.«175926_j86371792323181_2_alg».proof.Proof.Gen.KernelIdeal.Skeleton
import proofs.«175926_j86371792323181_2_alg».proof.Proof.Gen.KernelIdeal.Points
import Idealize.ShloMosaic.Lib.Pipeline.FrameBody

noncomputable section

namespace Cert.KernelIdeal.Region

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ)

/-- Core `c`'s buffers when the region is entered: the launch memory after the host operations before it. -/
abbrev V (c : Dev nD) (b : Ref sig .tc) : Buf (Elt F) ((c : Thread nD τ).loc b) :=
  StableHlo.after hostOps0 (fun b => m (c, b)) b

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! ## The body's accesses: every one the whole staging buffer -/

abbrev rBlk : Rect S5000x128 := Rect.unit (s := S5000x128) ![0, 0] S5000x128.size inb_S5000x128_S5000x128_0_0
abbrev rCol : Rect S5000x1 := Rect.unit (s := S5000x1) ![0, 0] S5000x1.size inb_S5000x1_S5000x1_0_0
abbrev rW : Rect S128x128 := Rect.unit (s := S128x128) ![0, 0] S128x128.size inb_S128x128_S128x128_0_0
abbrev rBias : Rect S1x128 := Rect.unit (s := S1x128) ![0, 0] S1x128.size inb_S1x128_S1x128_0_0
abbrev rCoef : Rect S1x3 := Rect.unit (s := S1x3) ![0, 0] S1x3.size inb_S1x3_S1x3_0_0

/-- The output staging buffer after the body, from the contents of the seven input staging buffers
    (x, Lx, the second aggregate, the degree column, the weights, the bias row, the coefficient row):
    its one store, of the body's arithmetic of the loaded blocks. -/
def outBlk (x0 x1 x2 : Vec F S5000x128 .f32) (x3 : Vec F S5000x1 .f32) (x4 : Vec F S128x128 .f32)
    (x5 : Vec F S1x128 .f32) (x6 : Vec F S1x3 .f32) : Vec F S5000x128 .f32 :=
  View.canon [⟨rBlk, k0_pay1 (View.ld x0 rBlk) (View.ld x1 rBlk) (View.ld x2 rBlk) (View.ld x3 rCol)
    (View.ld x6 rCoef) (View.ld x4 rW) (View.ld x5 rBias)⟩]

/-- The pipeline's proof data on core `c`: the arrays as the region finds them; after the body at point `t`
    each input's buffer still at its block and the output's at `outBlk` of the input blocks; nothing owed,
    full shares, the invariant the scoped rest untouched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlk (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents (projected, never unfolded). -/
theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
/-- What the body leaves in the output's staging buffer at point `t`. -/
theorem after_out (c : Dev nD) (t : Fin cfg0.N) : (dats m 0 c).after 7 t =
    outBlk (iblk m c 0 t) (iblk m c 1 t) (iblk m c 2 t) (iblk m c 3 t) (iblk m c 4 t) (iblk m c 5 t) (iblk m c 6 t) := by
  dsimp only [dats]

end Cert.KernelIdeal.Region

end
-- ==== Proof.KernelIdealFrame.lean ====
/-
  The frame of the program's one pallas_call, against the pipeline library's launch theorem: @main up to the
  region (61 host operations, none of which writes an argument array), each input window's staging buffer at
  its block at every grid point whether the pipeline fetched it there or not (the weight matrix, the bias row
  and the coefficient row are fetched at the first point only: their block index never moves), the body's
  triple on whole staging buffers, the body obligation at a generic point, the run, and the frame claim's
  post read off the run's: a staged argument is an input window's array, never written back; an argument no
  window stages bypasses the region and is read back as the region found it.

  The body loads the seven input buffers whole, loads the output buffer once without using the value, and
  stores one whole block: the output buffer then reads the stored block whatever it held before.
-/
import proofs.«175926_j86371792323181_2_alg».proof.Proof.KernelIdealRegion
import Idealize.ShloMosaic.Lib.Pipeline.FrameBody
import Idealize.ShloMosaic.Lib.Ring
import Idealize.ShloMosaic.Lib.Tactic

-- membership in a rectangle of these extents: the elaborator's structural look recurses once per coordinate
-- of the long axis
set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- No host operation before the region allocates. -/
theorem hostOps0_fresh : (hostOps0 : List (HloOp τ sig (Elt F))).Forall fun op => op.fresh = ∅ := by
  simp only [List.Forall]; repeat' constructor

/-- @main up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## The input windows' blocks -/

/-- Input window 0's current staging buffer holds its block at every point, fetched there or not, for any proof
    data whose array is the region-entry contents and whose body leaves the block in place: unfetched, the block
    index has not moved, so the previous point's block is this point's. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is the region-entry contents and whose body leaves the block in place: unfetched, the block
    index has not moved, so the previous point's block is this point's. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is the region-entry contents and whose body leaves the block in place: unfetched, the block
    index has not moved, so the previous point's block is this point's. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is the region-entry contents and whose body leaves the block in place: unfetched, the block
    index has not moved, so the previous point's block is this point's. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is the region-entry contents and whose body leaves the block in place: unfetched, the block
    index has not moved, so the previous point's block is this point's. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof
    data whose array is the region-entry contents and whose body leaves the block in place: unfetched, the block
    index has not moved, so the previous point's block is this point's. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof
    data whose array is the region-entry contents and whose body leaves the block in place: unfetched, the block
    index has not moved, so the previous point's block is this point's. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post read at the
    argument arrays — the two staged arguments as input windows' arrays, never written back; the other five as
    buffers no window stages — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).1 4).trans (((dats 0 c).arrAt_in 4 rfl _).trans ((hA c 4).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's triple -/

/-- The body's one store is of the whole block, so it covers the output buffer. -/
theorem cover_out (p0 : Vec F S5000x128 .f32) (y : S5000x128.Idx) :
    ∃ pc ∈ ([⟨rBlk, p0⟩] : List (View.Piece (Elt F) S5000x128 .f32)), y ∈ pc.1.set :=
  View.cover_of_tiled [⟨rBlk, p0⟩] S5000x128.size (by rfl) y

set_option maxHeartbeats 1000000 in
/-- The kernel body on whole staging memrefs, the inputs' at read contents `x0 … x6` and the output's at anything,
    runs to the continuation holding the inputs' as they were and the output's at `outBlk` of the inputs'. The load
    of the output buffer needs only that the buffer is held; its value is not used. -/
theorem sound_kernel (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x3 .f32) (harg7 : arg7.IsWhole) (arg8 : Memref sig .tc .vmem S5000x128 .f32) (harg8 : arg8.IsWhole)
    (x0 x1 x2 : Vec F S5000x128 .f32) (x3 : Vec F S5000x1 .f32) (x4 : Vec F S128x128 .f32) (x5 : Vec F S1x128 .f32) (x6 : Vec F S1x3 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (outBlk x0 x1 x2 x3 x4 x5 x6)) -∗ K ⟨⟩))
      ⊢ wp frame (wpE (defs₀ (F := F)) Variants.none c none) E (cc0__final_kernel i arg1 harg1 arg2 harg2 arg3 harg3 arg4 harg4 arg5 harg5 arg6 harg6 arg7 harg7 arg8 harg8) K := by
  simp only [cc0__final_kernel_eq_skeleton]; unfold cc0__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover_out _)

/-! ## The input buffers at the proof data -/

theorem before0 (c : Dev nD) (t : Fin cfg0.N) (d) : (dats m 0 c).before 0 t d = iblk m c 0 t :=
  before0_of m (dats m 0 c) (A_eq m c 0) (after_in0 m c) t d
theorem before1 (c : Dev nD) (t : Fin cfg0.N) (d) : (dats m 0 c).before 1 t d = iblk m c 1 t :=
  before1_of m (dats m 0 c) (A_eq m c 1) (after_in1 m c) t d
theorem before2 (c : Dev nD) (t : Fin cfg0.N) (d) : (dats m 0 c).before 2 t d = iblk m c 2 t :=
  before2_of m (dats m 0 c) (A_eq m c 2) (after_in2 m c) t d
theorem before3 (c : Dev nD) (t : Fin cfg0.N) (d) : (dats m 0 c).before 3 t d = iblk m c 3 t :=
  before3_of m (dats m 0 c) (A_eq m c 3) (after_in3 m c) t d
theorem before4 (c : Dev nD) (t : Fin cfg0.N) (d) : (dats m 0 c).before 4 t d = iblk m c 4 t :=
  before4_of m (dats m 0 c) (A_eq m c 4) (after_in4 m c) t d
theorem before5 (c : Dev nD) (t : Fin cfg0.N) (d) : (dats m 0 c).before 5 t d = iblk m c 5 t :=
  before5_of m (dats m 0 c) (A_eq m c 5) (after_in5 m c) t d
theorem before6 (c : Dev nD) (t : Fin cfg0.N) (d) : (dats m 0 c).before 6 t d = iblk m c 6 t :=
  before6_of m (dats m 0 c) (A_eq m c 6) (after_in6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so the body's triple applies; the invariant and
    the core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes
-- unfolding plain definitions in a metavariable's type
set_option backward.isDefEq.respectTransparency.types false in
/-- At the compiled mesh, for any values, from any memory with zero counters: every weakly fair execution of @main on
    the TensorCores terminates, and every final state has every array of the pipeline at what the library computes
    from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs, and its seven argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Region

end
-- ==== Proof.RegionSpec.lean ====
/-
  The function the fused region computes, as ONE function of the seven arrays it is launched on, entry by entry on the
  extended reals.

  For a node i and an output feature j, with x, Lx, agg the three [100000,128] arrays (the features, the Laplacian
  applied once, and the neighbour sum of the rescaled Lx), d the [100000,1] column of inverse square-root degrees,
  W the [128,128] weights, the bias a [1,128] row and (a, b, c) the [1,3] row of polynomial coefficients:

      L²x(i,k)  = Lx(i,k) − d(i) · (agg(i,k) + d(i) · Lx(i,k))
      comb(i,k) = (a · L²x(i,k) + b · Lx(i,k)) + c · x(i,k)
      out(i,j)  = Σ_k comb(i,k) · W(k,j)  +  bias(j)

  The sums and products are those of the extended reals, in exactly this grouping, so that both programs meet this
  term with no algebraic law at all.
-/
import Idealize.ShloMosaic.PureOps.Ideal
import Idealize.ShloMosaic.Lib.ValueIdx

noncomputable section

open scoped BigOperators

namespace Cert.Spectral

open Idealize.ShloMosaic Idealize.ShloMosaic.ValueIdx

/-- Node features: 100000 nodes by 128 features. -/
abbrev Nodes : Shape := ⟨2, ![100000, 128]⟩
/-- One number per node, kept as a column. -/
abbrev NodeCol : Shape := ⟨2, ![100000, 1]⟩
abbrev Weights : Shape := ⟨2, ![128, 128]⟩
abbrev BiasRow : Shape := ⟨2, ![1, 128]⟩
abbrev CoefRow : Shape := ⟨2, ![1, 3]⟩

/-- The polynomial combination a·L²x + b·Lx + c·x at node `i`, feature `k`. -/
def combAt (X LX AGG : Nodes.Idx → EReal) (D : NodeCol.Idx → EReal) (C : CoefRow.Idx → EReal)
    (i : Fin 100000) (k : Fin 128) : EReal :=
  (C (ix2 (0 : Fin 1) (0 : Fin 3))
      * (LX (ix2 i k) - D (ix2 i (0 : Fin 1)) * (AGG (ix2 i k) + D (ix2 i (0 : Fin 1)) * LX (ix2 i k)))
    + C (ix2 (0 : Fin 1) (1 : Fin 3)) * LX (ix2 i k))
  + C (ix2 (0 : Fin 1) (2 : Fin 3)) * X (ix2 i k)

/-- The region's output at node `i`, output feature `j`. -/
def regionOutAt (X LX AGG : Nodes.Idx → EReal) (D : NodeCol.Idx → EReal) (W : Weights.Idx → EReal)
    (B : BiasRow.Idx → EReal) (C : CoefRow.Idx → EReal) (i : Fin 100000) (j : Fin 128) : EReal :=
  (∑ k : Fin 128, combAt X LX AGG D C i k * W (ix2 k j)) + B (ix2 (0 : Fin 1) j)

/-- The region's output array. -/
def regionOut (X LX AGG : Nodes.Idx → EReal) (D : NodeCol.Idx → EReal) (W : Weights.Idx → EReal)
    (B : BiasRow.Idx → EReal) (C : CoefRow.Idx → EReal) : Nodes.Idx → EReal :=
  fun ij => regionOutAt X LX AGG D W B C ⟨(ij 0).val, (ij 0).isLt⟩ ⟨(ij 1).val, (ij 1).isLt⟩

theorem regionOut_apply (X LX AGG : Nodes.Idx → EReal) (D : NodeCol.Idx → EReal) (W : Weights.Idx → EReal)
    (B : BiasRow.Idx → EReal) (C : CoefRow.Idx → EReal) (i : Fin 100000) (j : Fin 128) :
    regionOut X LX AGG D W B C (ix2 i j) = regionOutAt X LX AGG D W B C i j := rfl

end Cert.Spectral

end
-- ==== Proof.LibDot.lean ====
/-
  A rows-by-columns matrix product `[M,K] · [K,N]` read at an entry, at the ideal values: entry (i, j) is the sum over
  the contracted coordinate k of L(i,k) · R(k,j) — for the host's `dot_general` and for a kernel's `tpu.matmul`
  accumulated into a zero splat alike, whatever witness of well-formedness the dimension record carries. From it: the
  rows `o … o+m-1` of a product are the product of those rows of the left operand.
-/
import Idealize.ShloMosaic.Lib.ValueIdx
import Idealize.ShloMosaic.PureOps.Ideal.Laws
import Idealize.ShloMosaic.Lib.KernelVsHost

noncomputable section

namespace Cert.LibDot

open Idealize.ShloMosaic Idealize.ShloMosaic.ValueIdx

variable {M K N : Nat} {φ₁ φ₂ : FTy}

/-- The dimension record of a rows-by-columns product: the left operand contracted on its axis 1, the right on its
    axis 0, no batch axis. -/
abbrev rc (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ := ⟨[1], [0], [0], [1], [], [], wf⟩

/-- The host's product at entry (i, j). -/
theorem hostDot_apply (wf : DotDims.WF (⟨2, ![M, K]⟩ : Shape) ⟨2, ![K, N]⟩ ⟨2, ![M, N]⟩ [1] [0] [0] [1] [] [])
    (L : FVec Ideal ⟨2, ![M, K]⟩ φ₁) (R : FVec Ideal ⟨2, ![K, N]⟩ φ₂) (i : Fin M) (j : Fin N) :
    Host.dotGeneral (rc wf) none L R (ix2 i j) = ∑ k : Fin K, L (ix2 i k) * R (ix2 k j) := by
  simp only [Host.dotGeneral]
  rw [Ideal.dotGeneral_apply, ← Equiv.sum_comp (contrEquiv1 (rc wf) K rfl rfl).symm]
  refine Finset.sum_congr rfl fun k _ => ?_
  have hk := contrEquiv1_symm_val (rc wf) K rfl rfl k
  have el : (rc wf).lhsIdx (ix2 i j) ((contrEquiv1 (rc wf) K rfl rfl).symm k) = ix2 i k := funext fun a => Fin.ext (by
    match a with
    | ⟨0, _⟩ => rfl
    | ⟨1, _⟩ => exact ((rc wf).lhsIdx_val_of_single rfl _ _).trans hk)
  have er : (rc wf).rhsIdx (ix2 i j) ((contrEquiv1 (rc wf) K rfl rfl).symm k) = ix2 k j := funext fun a => Fin.ext (by
    match a with
    | ⟨0, _⟩ => exact ((rc wf).rhsIdx_val_of_single rfl _ _).trans hk
    | ⟨1, _⟩ => rfl)
  rw [el, er]

/-- A kernel's product into a zero accumulator at entry (i, j): the same sum. -/
theorem matmulZero_apply (wf : DotDims.WF (⟨2, ![M, K]⟩ : Shape) ⟨2, ![K, N]⟩ ⟨2, ![M, N]⟩ [1] [0] [0] [1] [] [])
    (L : FVec Ideal ⟨2, ![M, K]⟩ φ₁) (R : FVec Ideal ⟨2, ![K, N]⟩ φ₂) (i : Fin M) (j : Fin N) :
    matmul (rc wf) none L R (constant ⟨2, ![M, N]⟩ .f32 0x00000000#32) (ix2 i j) = ∑ k : Fin K, L (ix2 i k) * R (ix2 k j) := by
  rw [matmul_zero_eq_dotGeneral]
  exact hostDot_apply wf L R i j

end Cert.LibDot

end
-- ==== Proof.LibLayout.lean ====
/-
  Layout operations of small ranks read at an index given by its coordinates: the unit axis a `keepdims` sum or a
  `[:, :, None]` adds at the END or in the MIDDLE of a shape, and the broadcasts along such a unit axis.  Each is the
  general "same row-major position" (for a cast) or "zero on the operand's unit axes" (for a broadcast) fact with
  both indices written out.
-/
import Idealize.ShloMosaic.Lib.Pipeline.Value
import Idealize.ShloMosaic.Lib.ValueIdx
import Idealize.ShloMosaic.Lib.ValueLayout

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Cert.Lib
-- ==== Proof.RegionValue.lean ====
/-
  The fused region's output array after the run is the region's function `Cert.Spectral.regionOut` of the seven arrays it
  was launched on.

  At grid point t the body holds rows 5000·t … 5000·t + 4999 of x, Lx, the neighbour sum and the degree column, and the
  whole of the weights, the bias row and the coefficient row; what it stores at block entry (p, q) is
  Σ_k comb(p,k)·W(k,q) + bias(q) with comb built from row p of the blocks — the matrix unit's product into a zero
  accumulator is the plain sum over k at the extended reals, and the change of format before it the identity. Row p of block
  t is row 5000·t + p of the array, so the block written back at t is block t of the one function of the whole arrays, and
  the twenty blocks cover the output.
-/
import proofs.«175926_j86371792323181_2_alg».proof.Proof.KernelIdealFrame
import proofs.«175926_j86371792323181_2_alg».proof.Proof.RegionSpec
import proofs.«175926_j86371792323181_2_alg».proof.Proof.LibDot
import proofs.«175926_j86371792323181_2_alg».proof.Proof.LibLayout
import Idealize.ShloMosaic.Lib.Pipeline.Value
import Idealize.ShloMosaic.Lib.ValueIdx
import Idealize.ShloMosaic.Lib.ValueLayout

noncomputable section

open scoped BigOperators

namespace Cert.KernelIdeal.RegionValue

open Cert.KernelIdeal Cert.KernelIdeal.Gen Cert.KernelIdeal.Region Cert.Spectral
open Idealize.ShloMosaic Idealize.ShloMosaic.TcCoe Idealize.SL.Sem Idealize.ShloMosaic.ValueIdx
open Idealize.ShloMosaic.Pipeline (Dat)

/-- Entry k of the coefficient row, as the body extracts it: a one-entry slice, then its one entry. -/
theorem coef_at (x13 : Vec Ideal S1x3 .f32) :
    extractAt ![0, 0] (extractStridedSlice S1x1 ![0, 0] x13 slices_S1x3_o0_0_S1x1) inpos_S1x1_p0_0 = x13 (ix2 (0 : Fin 1) (0 : Fin 3))
    ∧ extractAt ![0, 0] (extractStridedSlice S1x1 ![0, 1] x13 slices_S1x3_o0_1_S1x1) inpos_S1x1_p0_0 = x13 (ix2 (0 : Fin 1) (1 : Fin 3))
    ∧ extractAt ![0, 0] (extractStridedSlice S1x1 ![0, 2] x13 slices_S1x3_o0_2_S1x1) inpos_S1x1_p0_0 = x13 (ix2 (0 : Fin 1) (2 : Fin 3)) := by
  refine ⟨?_, ?_, ?_⟩ <;>
  · unfold extractAt extractStridedSlice
    refine congrArg x13 (funext fun a => Fin.ext ?_)
    match a with
    | ⟨0, _⟩ => rfl
    | ⟨1, _⟩ => rfl

/-- What the body stores, at entry (p, q) of the block. -/
theorem payload_at (x0 x1 x3 : Vec Ideal S5000x128 .f32) (x5 : Vec Ideal S5000x1 .f32) (x13 : Vec Ideal S1x3 .f32)
    (x30 : Vec Ideal S128x128 .f32) (x33 : Vec Ideal S1x128 .f32) (p : Fin 5000) (q : Fin 128) :
    k0_pay1 (F := Ideal) x0 x1 x3 x5 x13 x30 x33 (ix2 p q)
      = (∑ k : Fin 128,
          ((x13 (ix2 (0 : Fin 1) (0 : Fin 3))
              * (x1 (ix2 p k) - x5 (ix2 p (0 : Fin 1)) * (x3 (ix2 p k) + x5 (ix2 p (0 : Fin 1)) * x1 (ix2 p k)))
            + x13 (ix2 (0 : Fin 1) (1 : Fin 3)) * x1 (ix2 p k))
           + x13 (ix2 (0 : Fin 1) (2 : Fin 3)) * x0 (ix2 p k)) * x30 (ix2 k q))
        + x33 (ix2 (0 : Fin 1) q) := by
  obtain ⟨c0, c1, c2⟩ := coef_at x13
  unfold k0_pay1
  simp only [shapeCast_self]
  rw [addf_apply]
  refine congrArg₂ (· + ·) ?_ (broadcastTo_1b_ab_apply x33 _ p q)
  refine (Cert.LibDot.matmulZero_apply (M := 5000) (K := 128) (N := 128)
    dot_S5000x128_S128x128_S5000x128_1_0_0_1_n_n_wf _ _ p q).trans ?_
  refine Finset.sum_congr rfl fun k _ => ?_
  rw [truncf_apply, truncf_apply]
  refine congrArg (· * x30 (ix2 k q)) ?_
  simp only [addf_apply, mulf_apply, subf_apply, broadcast_apply, Cert.Lib.broadcastTo_a1_ab_apply]
  rw [c0, c1, c2]

/-- The block entry as the region's function of the whole arrays, when row p of the row blocks is row r of the arrays
    and the three small operands are staged whole. -/
theorem block_entry (x0 x1 x3 : Vec Ideal S5000x128 .f32) (x5 : Vec Ideal S5000x1 .f32) (x13 : Vec Ideal S1x3 .f32)
    (x30 : Vec Ideal S128x128 .f32) (x33 : Vec Ideal S1x128 .f32)
    (X LX AGG : Nodes.Idx → EReal) (D : NodeCol.Idx → EReal) (W : Weights.Idx → EReal) (B : BiasRow.Idx → EReal)
    (C : CoefRow.Idx → EReal) (r : Fin 100000) (p : Fin 5000) (q : Fin 128)
    (h0 : ∀ k : Fin 128, x0 (ix2 p k) = X (ix2 r k)) (h1 : ∀ k : Fin 128, x1 (ix2 p k) = LX (ix2 r k))
    (h3 : ∀ k : Fin 128, x3 (ix2 p k) = AGG (ix2 r k)) (h5 : x5 (ix2 p (0 : Fin 1)) = D (ix2 r (0 : Fin 1)))
    (h13 : x13 = C) (h30 : x30 = W) (h33 : x33 = B) :
    k0_pay1 (F := Ideal) x0 x1 x3 x5 x13 x30 x33 (ix2 p q) = regionOutAt X LX AGG D W B C r q := by
  rw [payload_at]
  subst h13 h30 h33
  unfold regionOutAt combAt
  refine congrArg (· + x33 (ix2 (0 : Fin 1) q)) (Finset.sum_congr rfl fun k _ => ?_)
  rw [h0 k, h1 k, h3 k, h5]

/-! ## The blocks as rows of the arrays -/

variable (m : (ℓ : Loc nD τ sig) → Buf (Elt Ideal) ℓ) (ρ : Dev nD → PrngReg)

theorem hz : (![0, 0] : Fin 2 → Nat) = fun _ => 0 := funext fun a => by fin_cases a <;> rfl

/-! The index maps, decided over the twenty points: the four row windows and the output move with the point, the three
    small operands stay at block (0, 0). -/
theorem idx_0 : ∀ t : Fin cfg0.N, win0_0.index t (0 : Fin 2) = t.val ∧ win0_0.index t (1 : Fin 2) = 0 :=
  (by decide +kernel : ∀ t : Fin grid0.N, _)
theorem idx_1 : ∀ t : Fin cfg0.N, win0_1.index t (0 : Fin 2) = t.val ∧ win0_1.index t (1 : Fin 2) = 0 :=
  (by decide +kernel : ∀ t : Fin grid0.N, _)
theorem idx_2 : ∀ t : Fin cfg0.N, win0_2.index t (0 : Fin 2) = t.val ∧ win0_2.index t (1 : Fin 2) = 0 :=
  (by decide +kernel : ∀ t : Fin grid0.N, _)
theorem idx_3 : ∀ t : Fin cfg0.N, win0_3.index t (0 : Fin 2) = t.val ∧ win0_3.index t (1 : Fin 2) = 0 :=
  (by decide +kernel : ∀ t : Fin grid0.N, _)
theorem idx_7 : ∀ t : Fin cfg0.N, win0_7.index t (0 : Fin 2) = t.val ∧ win0_7.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)

/-! Each window's block read off ANY contents `G` of its array, then off the contents the region finds. -/
theorem read_rows0 (c : Dev nD) (G : Buf (Elt Ideal) ((c : Thread nD τ).loc (Pipeline.arrRef spec0 0)))
    (t : Fin cfg0.N) (p : Fin 5000) (k : Fin 128) (r : Fin 100000) (hr : r.val = 5000 * t.val + p.val) :
    ((cfg0.win 0).blk t).view.read (Elt Ideal) G (ix2 p k) = (G : Nodes.Idx → EReal) (ix2 r k) := by
  have e : ((cfg0.win 0).blk t).view.emb (ix2 p k) = ix2 r k := by
    obtain ⟨f0, f1⟩ := idx_0 t
    exact funext fun a => Fin.ext (by
      match a with
      | ⟨0, _⟩ => show win0_0.index t (0 : Fin 2) * 5000 + 1 * p.val = r.val; rw [f0]; clear f0 f1; omega
      | ⟨1, _⟩ => show win0_0.index t (1 : Fin 2) * 128 + 1 * k.val = k.val; rw [f1]; clear f0 f1; omega)
  rw [View.read_apply]
  show G (((cfg0.win 0).blk t).view.emb (ix2 p k)) = G (ix2 r k)
  rw [e]

theorem rows_x (c : Dev nD) (t : Fin cfg0.N) (p : Fin 5000) (k : Fin 128) (r : Fin 100000) (hr : r.val = 5000 * t.val + p.val) :
    (iblk m c 0 t : Vec Ideal S5000x128 .f32) (ix2 p k) = (V m c main_arg0 : Nodes.Idx → EReal) (ix2 r k) := by
  unfold iblk
  exact read_rows0 c (V m c (Pipeline.arrRef spec0 0)) t p k r hr

theorem read_rows1 (c : Dev nD) (G : Buf (Elt Ideal) ((c : Thread nD τ).loc (Pipeline.arrRef spec0 1)))
    (t : Fin cfg0.N) (p : Fin 5000) (k : Fin 128) (r : Fin 100000) (hr : r.val = 5000 * t.val + p.val) :
    ((cfg0.win 1).blk t).view.read (Elt Ideal) G (ix2 p k) = (G : Nodes.Idx → EReal) (ix2 r k) := by
  have e : ((cfg0.win 1).blk t).view.emb (ix2 p k) = ix2 r k := by
    obtain ⟨f0, f1⟩ := idx_1 t
    exact funext fun a => Fin.ext (by
      match a with
      | ⟨0, _⟩ => show win0_1.index t (0 : Fin 2) * 5000 + 1 * p.val = r.val; rw [f0]; clear f0 f1; omega
      | ⟨1, _⟩ => show win0_1.index t (1 : Fin 2) * 128 + 1 * k.val = k.val; rw [f1]; clear f0 f1; omega)
  rw [View.read_apply]
  show G (((cfg0.win 1).blk t).view.emb (ix2 p k)) = G (ix2 r k)
  rw [e]

theorem rows_lx (c : Dev nD) (t : Fin cfg0.N) (p : Fin 5000) (k : Fin 128) (r : Fin 100000) (hr : r.val = 5000 * t.val + p.val) :
    (iblk m c 1 t : Vec Ideal S5000x128 .f32) (ix2 p k) = (V m c main_v31 : Nodes.Idx → EReal) (ix2 r k) := by
  unfold iblk
  exact read_rows1 c (V m c (Pipeline.arrRef spec0 1)) t p k r hr

theorem read_rows2 (c : Dev nD) (G : Buf (Elt Ideal) ((c : Thread nD τ).loc (Pipeline.arrRef spec0 2)))
    (t : Fin cfg0.N) (p : Fin 5000) (k : Fin 128) (r : Fin 100000) (hr : r.val = 5000 * t.val + p.val) :
    ((cfg0.win 2).blk t).view.read (Elt Ideal) G (ix2 p k) = (G : Nodes.Idx → EReal) (ix2 r k) := by
  have e : ((cfg0.win 2).blk t).view.emb (ix2 p k) = ix2 r k := by
    obtain ⟨f0, f1⟩ := idx_2 t
    exact funext fun a => Fin.ext (by
      match a with
      | ⟨0, _⟩ => show win0_2.index t (0 : Fin 2) * 5000 + 1 * p.val = r.val; rw [f0]; clear f0 f1; omega
      | ⟨1, _⟩ => show win0_2.index t (1 : Fin 2) * 128 + 1 * k.val = k.val; rw [f1]; clear f0 f1; omega)
  rw [View.read_apply]
  show G (((cfg0.win 2).blk t).view.emb (ix2 p k)) = G (ix2 r k)
  rw [e]

theorem rows_agg (c : Dev nD) (t : Fin cfg0.N) (p : Fin 5000) (k : Fin 128) (r : Fin 100000) (hr : r.val = 5000 * t.val + p.val) :
    (iblk m c 2 t : Vec Ideal S5000x128 .f32) (ix2 p k) = (V m c main_v45 : Nodes.Idx → EReal) (ix2 r k) := by
  unfold iblk
  exact read_rows2 c (V m c (Pipeline.arrRef spec0 2)) t p k r hr

theorem read_rows3 (c : Dev nD) (G : Buf (Elt Ideal) ((c : Thread nD τ).loc (Pipeline.arrRef spec0 3)))
    (t : Fin cfg0.N) (p : Fin 5000) (k : Fin 1) (r : Fin 100000) (hr : r.val = 5000 * t.val + p.val) :
    ((cfg0.win 3).blk t).view.read (Elt Ideal) G (ix2 p k) = (G : NodeCol.Idx → EReal) (ix2 r k) := by
  have e : ((cfg0.win 3).blk t).view.emb (ix2 p k) = ix2 r k := by
    obtain ⟨f0, f1⟩ := idx_3 t
    exact funext fun a => Fin.ext (by
      match a with
      | ⟨0, _⟩ => show win0_3.index t (0 : Fin 2) * 5000 + 1 * p.val = r.val; rw [f0]; clear f0 f1; omega
      | ⟨1, _⟩ => show win0_3.index t (1 : Fin 2) * 1 + 1 * k.val = k.val; rw [f1]; clear f0 f1; omega)
  rw [View.read_apply]
  show G (((cfg0.win 3).blk t).view.emb (ix2 p k)) = G (ix2 r k)
  rw [e]

theorem rows_deg (c : Dev nD) (t : Fin cfg0.N) (p : Fin 5000) (k : Fin 1) (r : Fin 100000) (hr : r.val = 5000 * t.val + p.val) :
    (iblk m c 3 t : Vec Ideal S5000x1 .f32) (ix2 p k) = (V m c main_v11 : NodeCol.Idx → EReal) (ix2 r k) := by
  unfold iblk
  exact read_rows3 c (V m c (Pipeline.arrRef spec0 3)) t p k r hr

theorem read_whole4 (c : Dev nD) (G : Buf (Elt Ideal) ((c : Thread nD τ).loc (Pipeline.arrRef spec0 4))) (t : Fin cfg0.N) :
    ((cfg0.win 4).blk t).view.read (Elt Ideal) G = (G : Weights.Idx → EReal) := by
  funext y
  have e : ((cfg0.win 4).blk t).view.emb y = y := by
    obtain ⟨f0, f1⟩ := idx_4 t
    exact funext fun a => Fin.ext (by
      match a with
      | ⟨0, _⟩ => show win0_4.index t (0 : Fin 2) * 128 + 1 * (y 0).val = (y 0).val; rw [f0, Nat.zero_mul, Nat.zero_add, Nat.one_mul]
      | ⟨1, _⟩ => show win0_4.index t (1 : Fin 2) * 128 + 1 * (y 1).val = (y 1).val; rw [f1, Nat.zero_mul, Nat.zero_add, Nat.one_mul])
  rw [View.read_apply]
  show G (((cfg0.win 4).blk t).view.emb y) = G y
  rw [e]

theorem whole_w (c : Dev nD) (t : Fin cfg0.N) : (iblk m c 4 t : Vec Ideal S128x128 .f32) = (V m c main_arg2 : Weights.Idx → EReal) := by
  unfold iblk
  exact read_whole4 c (V m c (Pipeline.arrRef spec0 4)) t

theorem read_whole5 (c : Dev nD) (G : Buf (Elt Ideal) ((c : Thread nD τ).loc (Pipeline.arrRef spec0 5))) (t : Fin cfg0.N) :
    ((cfg0.win 5).blk t).view.read (Elt Ideal) G = (G : BiasRow.Idx → EReal) := by
  funext y
  have e : ((cfg0.win 5).blk t).view.emb y = y := by
    obtain ⟨f0, f1⟩ := idx_5 t
    exact funext fun a => Fin.ext (by
      match a with
      | ⟨0, _⟩ => show win0_5.index t (0 : Fin 2) * 1 + 1 * (y 0).val = (y 0).val; rw [f0, Nat.zero_mul, Nat.zero_add, Nat.one_mul]
      | ⟨1, _⟩ => show win0_5.index t (1 : Fin 2) * 128 + 1 * (y 1).val = (y 1).val; rw [f1, Nat.zero_mul, Nat.zero_add, Nat.one_mul])
  rw [View.read_apply]
  show G (((cfg0.win 5).blk t).view.emb y) = G y
  rw [e]

theorem whole_bias (c : Dev nD) (t : Fin cfg0.N) : (iblk m c 5 t : Vec Ideal S1x128 .f32) = (V m c main_v51 : BiasRow.Idx → EReal) := by
  unfold iblk
  exact read_whole5 c (V m c (Pipeline.arrRef spec0 5)) t

theorem read_whole6 (c : Dev nD) (G : Buf (Elt Ideal) ((c : Thread nD τ).loc (Pipeline.arrRef spec0 6))) (t : Fin cfg0.N) :
    ((cfg0.win 6).blk t).view.read (Elt Ideal) G = (G : CoefRow.Idx → EReal) := by
  funext y
  have e : ((cfg0.win 6).blk t).view.emb y = y := by
    obtain ⟨f0, f1⟩ := idx_6 t
    exact funext fun a => Fin.ext (by
      match a with
      | ⟨0, _⟩ => show win0_6.index t (0 : Fin 2) * 1 + 1 * (y 0).val = (y 0).val; rw [f0, Nat.zero_mul, Nat.zero_add, Nat.one_mul]
      | ⟨1, _⟩ => show win0_6.index t (1 : Fin 2) * 3 + 1 * (y 1).val = (y 1).val; rw [f1, Nat.zero_mul, Nat.zero_add, Nat.one_mul])
  rw [View.read_apply]
  show G (((cfg0.win 6).blk t).view.emb y) = G y
  rw [e]

theorem whole_coef (c : Dev nD) (t : Fin cfg0.N) : (iblk m c 6 t : Vec Ideal S1x3 .f32) = (V m c main_v50 : CoefRow.Idx → EReal) := by
  unfold iblk
  exact read_whole6 c (V m c (Pipeline.arrRef spec0 6)) t

/-! ## From blocks to the array -/

/-- The region's function of the arrays the region finds. -/
def outArr (c : Dev nD) : Nodes.Idx → EReal :=
  regionOut (V m c main_arg0 : Nodes.Idx → EReal) (V m c main_v31 : Nodes.Idx → EReal) (V m c main_v45 : Nodes.Idx → EReal)
    (V m c main_v11 : NodeCol.Idx → EReal) (V m c main_arg2 : Weights.Idx → EReal) (V m c main_v51 : BiasRow.Idx → EReal)
    (V m c main_v50 : CoefRow.Idx → EReal)

theorem outArr_apply (c : Dev nD) (r : Fin 100000) (q : Fin 128) :
    outArr m c (ix2 r q)
      = regionOutAt (V m c main_arg0 : Nodes.Idx → EReal) (V m c main_v31 : Nodes.Idx → EReal) (V m c main_v45 : Nodes.Idx → EReal)
          (V m c main_v11 : NodeCol.Idx → EReal) (V m c main_arg2 : Weights.Idx → EReal) (V m c main_v51 : BiasRow.Idx → EReal)
          (V m c main_v50 : CoefRow.Idx → EReal) r q := rfl

/-- Entry j of the output's block at point t, read off ANY contents `G` of the output array: row 5000·t + j₀. -/
theorem read_out (c : Dev nD) (G : Buf (Elt Ideal) ((c : Thread nD τ).loc (Pipeline.arrRef spec0 7))) (t : Fin cfg0.N)
    (j : ((cfg0.win 7).xblock (cfg0.grid.coords t)).Idx) (r : Fin 100000) (q : Fin 128)
    (hr : r.val = 5000 * t.val + (j 0).val) (hq : q.val = (j 1).val) :
    ((cfg0.win 7).blk t).view.read (Elt Ideal) G j = (G : Nodes.Idx → EReal) (ix2 r q) := by
  have e : ((cfg0.win 7).blk t).view.emb j = ix2 r q := by
    obtain ⟨g0, g1⟩ := idx_7 t
    exact funext fun a => Fin.ext (by
      match a with
      | ⟨0, _⟩ => show win0_7.index t (0 : Fin 2) * 5000 + 1 * (j 0).val = r.val; rw [g0]; clear g0 g1; omega
      | ⟨1, _⟩ => show win0_7.index t (1 : Fin 2) * 128 + 1 * (j 1).val = q.val; rw [g1]; clear g0 g1; omega)
  rw [View.read_apply]
  show G (((cfg0.win 7).blk t).view.emb j) = G (ix2 r q)
  rw [e]

/-- What point t writes back is block t of that one function. -/
theorem flushed_eq (c : Dev nD) (t : Fin cfg0.N) :
    (dats m 0 c).flushed 7 t = ((cfg0.win 7).blk t).view.read (Elt Ideal) (outArr m c) := by
  show (cfg0.win 7).cut (grid0.coords t) ((dats m 0 c).after 7 t) = _
  rw [after_out]
  unfold outBlk
  rw [View.canon_unit_zero hz]
  simp only [View.ld_unit_zero (S := S5000x128) hz, View.ld_unit_zero (S := S5000x1) hz, View.ld_unit_zero (S := S128x128) hz,
    View.ld_unit_zero (S := S1x128) hz, View.ld_unit_zero (S := S1x3) hz]
  have hN : cfg0.N = 20 := N_0
  have ht : t.val < 20 := hN ▸ t.isLt
  funext j
  have hj0 : (j 0).val < 5000 := (j 0).isLt
  have hj1 : (j 1).val < 128 := (j 1).isLt
  have hr : 5000 * t.val + (j 0).val < 100000 := by omega
  have hj : j = ix2 (⟨(j 0).val, hj0⟩ : Fin 5000) (⟨(j 1).val, hj1⟩ : Fin 128) := funext fun a => by
    match a with
    | ⟨0, _⟩ => rfl
    | ⟨1, _⟩ => rfl
  refine Eq.trans ?_ (read_out c (outArr m c) t j (⟨5000 * t.val + (j 0).val, hr⟩ : Fin 100000) (⟨(j 1).val, hj1⟩ : Fin 128) rfl rfl).symm
  refine Eq.trans ?_ (outArr_apply m c (⟨5000 * t.val + (j 0).val, hr⟩ : Fin 100000) (⟨(j 1).val, hj1⟩ : Fin 128)).symm
  show k0_pay1 (F := Ideal) (iblk m c 0 t) (iblk m c 1 t) (iblk m c 2 t) (iblk m c 3 t) (iblk m c 6 t) (iblk m c 4 t) (iblk m c 5 t) j = _
  refine (congrArg (k0_pay1 (F := Ideal) (iblk m c 0 t) (iblk m c 1 t) (iblk m c 2 t) (iblk m c 3 t) (iblk m c 6 t) (iblk m c 4 t) (iblk m c 5 t)) hj).trans ?_
  exact block_entry (iblk m c 0 t) (iblk m c 1 t) (iblk m c 2 t) (iblk m c 3 t) (iblk m c 6 t) (iblk m c 4 t) (iblk m c 5 t)
    (V m c main_arg0 : Nodes.Idx → EReal) (V m c main_v31 : Nodes.Idx → EReal) (V m c main_v45 : Nodes.Idx → EReal)
    (V m c main_v11 : NodeCol.Idx → EReal) (V m c main_arg2 : Weights.Idx → EReal) (V m c main_v51 : BiasRow.Idx → EReal)
    (V m c main_v50 : CoefRow.Idx → EReal) (⟨5000 * t.val + (j 0).val, hr⟩ : Fin 100000) (⟨(j 0).val, hj0⟩ : Fin 5000) (⟨(j 1).val, hj1⟩ : Fin 128)
    (fun k => rows_x m c t (⟨(j 0).val, hj0⟩ : Fin 5000) k (⟨5000 * t.val + (j 0).val, hr⟩ : Fin 100000) rfl)
    (fun k => rows_lx m c t (⟨(j 0).val, hj0⟩ : Fin 5000) k (⟨5000 * t.val + (j 0).val, hr⟩ : Fin 100000) rfl)
    (fun k => rows_agg m c t (⟨(j 0).val, hj0⟩ : Fin 5000) k (⟨5000 * t.val + (j 0).val, hr⟩ : Fin 100000) rfl)
    (rows_deg m c t (⟨(j 0).val, hj0⟩ : Fin 5000) (0 : Fin 1) (⟨5000 * t.val + (j 0).val, hr⟩ : Fin 100000) rfl)
    (whole_coef m c t) (whole_w m c t) (whole_bias m c t)

/-- An index of the output array is in point t's block iff each coordinate is in the block's range on its axis. -/
theorem mem_blk (t : Fin cfg0.N) (i : S100000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v52).slice (win0_7.rect t)).set ↔ _
  rw [View.set_slice_whole, Rect.mem_set_unit]
  exact Iff.rfl

/-- Row r of the output lies in the block of point r / 5000. -/
theorem cover (i : S100000x128.Idx) : ∃ t : Fin cfg0.N, (cfg0.win 7).flush t = true ∧ i ∈ ((cfg0.win 7).blk t).view.set := by
  have hN : cfg0.N = 20 := N_0
  have hi0 : (i 0).val < 100000 := (i 0).isLt
  have hi1 : (i 1).val < 128 := (i 1).isLt
  have ht : (i 0).val / 5000 < cfg0.N := by rw [hN]; omega
  refine ⟨⟨(i 0).val / 5000, ht⟩, flush0_7 _, ?_⟩
  obtain ⟨g0, g1⟩ := idx_7 ⟨(i 0).val / 5000, ht⟩
  rw [mem_blk]
  intro a
  match a with
  | ⟨0, _⟩ =>
    show win0_7.index ⟨(i 0).val / 5000, ht⟩ (0 : Fin 2) * 5000 ≤ (i 0).val
      ∧ (i 0).val < win0_7.index ⟨(i 0).val / 5000, ht⟩ (0 : Fin 2) * 5000 + 5000
    rw [g0]
    show (i 0).val / 5000 * 5000 ≤ (i 0).val ∧ (i 0).val < (i 0).val / 5000 * 5000 + 5000
    clear g0 g1
    omega
  | ⟨1, _⟩ =>
    show win0_7.index ⟨(i 0).val / 5000, ht⟩ (1 : Fin 2) * 128 ≤ (i 1).val
      ∧ (i 1).val < win0_7.index ⟨(i 0).val / 5000, ht⟩ (1 : Fin 2) * 128 + 128
    rw [g1]
    clear g0 g1
    omega

/-- The output array after the run is the region's function of the arrays the region found. -/
theorem final (c : Dev nD) : (dats m 0 c).arrAt 7 cfg0.N = outArr m c :=
  (dats m 0 c).arrAt_eq_of_cover 7 (outArr m c) (fun t _ => flushed_eq m c t) cover

/-- The run, read: the result array at the region's function, the arguments unchanged. -/
theorem run : θ_run defs (onTc (τ := τ) (main (F := Ideal))) ⟨m, fun _ => 0, ρ⟩ fun r => ∀ c : Dev nD,
      r.2.mem ((c.tc : Thread nD τ).loc main_v52) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).1 7).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 4).trans (((dats m 0 c).arrAt_in 4 rfl _).trans ((A_eq m c 4).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.KernelIdeal.RegionValue

end
-- ==== Proof.LibRowIndexing.lean ====
/-
  General lemmas: StableHLO's `gather` and accumulating `scatter`, for the dimension numbers that row indexing
  `x[idx]` and `zeros.at[idx].add(u)` lower to when `idx` is a column `[E, 1]` of row numbers, read at one index.

  * a gather of rows: result element `e` (or `(e, f)`) is the operand at row `idx[e]`, the row number read as a signed
    integer and clamped into `[0, N - 1]`;
  * an accumulating scatter at the extended reals: operand element `r` (or `(r, f)`) plus the sum, over all update rows
    `e`, of update `e` (or `(e, f)`) when `idx[e]`, read as a signed integer and NOT clamped, is exactly `r`; an update
    whose row number is outside `[0, N)` meets no `r` and so is dropped.
-/
import Idealize.ShloMosaic.PureOps.Ideal
import Idealize.ShloMosaic.Lib.ValueIdx

noncomputable section

open scoped BigOperators

namespace Idealize.ShloMosaic.RowIndexing

open Idealize.ShloMosaic Idealize.ShloMosaic.ValueIdx

variable {α : Type}

/-! ## Gathering entries of a vector -/

/-- The dimension numbers of `x[idx]` for a vector `x : [N]` and a column of row numbers `idx : [E, 1]`. -/
abbrev pickDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gathered vector is the operand at the clamped row number `idx[e]`. -/
theorem gather_pick_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (pickDims N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (pickDims N E wf).start (ix1 e) idx 0 + (pickDims N E wf).batchCoord (ix1 e) 0 + (pickDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (pickDims N E wf).startIndexMap from List.mem_singleton.mpr rfl)]
  have hsi : (pickDims N E wf).siIdx (ix1 e) ⟨List.idxOf (0 : Fin 1) (pickDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Gathering rows of a matrix -/

/-- The dimension numbers of `x[idx]` for a matrix `x : [N, C]` and a column of row numbers `idx : [E, 1]`: whole rows. -/
abbrev rowsDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entry `(e, f)` of the gathered matrix is the operand at column `f` of the clamped row number `idx[e]`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowsDims N C E wf) x idx (ix2 e f)
      = x (ix2 (⟨min (idx (ix2 e (0 : Fin 1))).toInt.toNat (N - 1), by omega⟩ : Fin N) f) := by
  unfold Host.gather
  congr 1
  funext a
  refine Fin.ext ?_
  show (rowsDims N C E wf).start (ix2 e f) idx a + (rowsDims N C E wf).batchCoord (ix2 e f) a + (rowsDims N C E wf).offCoord (ix2 e f) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowsDims N C E wf).startIndexMap from List.mem_singleton.mpr rfl)]
    have hsi : (rowsDims N C E wf).siIdx (ix2 e f) ⟨List.idxOf (⟨0, by decide⟩ : Fin 2) (rowsDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    unfold GatherDims.start
    rw [dif_neg (show (⟨1, by decide⟩ : Fin 2) ∉ (rowsDims N C E wf).startIndexMap from
      fun h => absurd (congrArg Fin.val (List.mem_singleton.mp h)) Nat.one_ne_zero)]
    simp only [Nat.zero_add]
    unfold GatherDims.offCoord
    rw [dif_pos (show (⟨1, by decide⟩ : Fin 2) ∈ (rowsDims N C E wf).sKept from
      (GatherDims.mem_sKept _ _).mpr ⟨fun h => absurd (congrArg Fin.val (List.mem_singleton.mp h)) Nat.one_ne_zero, List.not_mem_nil⟩)]
    rfl

/-! ## Where an update lands -/

/-- An update index `j` lands at operand index `i` exactly when, on every operand axis, the start (read signed, not
    clamped) plus the window coordinate is `i`'s coordinate; when some axis falls outside the operand it lands nowhere. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro hs a
      have e := congrArg Fin.val (congrFun (Option.some.inj hs) a)
      have := (h a).1
      simp only at e
      omega
    · intro hall
      refine congrArg some (funext fun a => Fin.ext ?_)
      have := hall a
      have := (h a).1
      simp only
      omega
  · rename_i h
    constructor
    · intro hs; cases hs
    · intro hall
      exact absurd (fun a => by have := hall a; have := (i a).isLt; constructor <;> omega) h

/-- A sum over the indices of a vector is the sum over its one coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-! ## Accumulating scatter into a vector -/

/-- The dimension numbers of `zeros.at[idx].add(u)` for a vector of length `N`, a column of row numbers `idx : [E, 1]`
    and updates `u : [E]`. -/
abbrev addAtDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands at entry `r` exactly when the row number `idx[e]`, read signed, is `r`. -/
theorem addAt_lands {N E w : Nat} (wf : ScatterDims.WF ⟨1, ![N]⟩ ⟨2, ![E, 1]⟩ ⟨1, ![E]⟩ [] [0] [0] 1)
    (idx : IVec ⟨2, ![E, 1]⟩ w) (e : Fin E) (r : Fin N) :
    (addAtDims N E wf).resultIdx? (ix1 e) idx = some (ix1 r) ↔ (idx (ix2 e (0 : Fin 1))).toInt = (r.val : Int) := by
  rw [resultIdx?_eq_some_iff]
  have hstart : (addAtDims N E wf).start (ix1 e) idx 0 = (idx (ix2 e (0 : Fin 1))).toInt := by
    unfold ScatterDims.start
    rw [dif_pos (show (0 : Fin 1) ∈ (addAtDims N E wf).scatterDimsToOperandDims from List.mem_singleton.mpr rfl)]
    have hsi : (addAtDims N E wf).siIdx (ix1 e) ⟨List.idxOf (0 : Fin 1) (addAtDims N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hwin : (addAtDims N E wf).window (ix1 e) 0 = 0 := by
    unfold ScatterDims.window
    rw [dif_neg (show (0 : Fin 1) ∉ (addAtDims N E wf).sKept from fun h =>
      (List.mem_filter.mp h).2 |> fun h2 => by simp at h2)]
  constructor
  · intro h
    have := h 0
    rw [hstart, hwin] at this
    simp only [Nat.cast_zero, add_zero] at this
    exact this
  · intro h a
    obtain rfl : a = 0 := Subsingleton.elim _ _
    rw [hstart, hwin]
    simp only [Nat.cast_zero, add_zero]
    exact h

/-- Entry `r` after the accumulating scatter: the operand's entry plus every update whose row number is `r`. -/
theorem scatterAdd_addAt_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (r : Fin N) :
    Ideal.hostScatterAdd (addAtDims N E wf) x idx upd (ix1 r)
      = x (ix1 r) + ∑ e : Fin E, if (idx (ix2 e (0 : Fin 1))).toInt = (r.val : Int) then upd (ix1 e) else 0 := by
  unfold Ideal.hostScatterAdd
  refine congrArg (x (ix1 r) + ·) ?_
  rw [Finset.sum_filter, sum_idx1]
  refine Finset.sum_congr rfl fun e _ => ?_
  exact if_congr (addAt_lands wf idx e r) rfl rfl

/-! ## Accumulating scatter of rows into a matrix -/

/-- The dimension numbers of `zeros.at[idx].add(u)` for a matrix `[N, C]`, a column of row numbers `idx : [E, 1]` and
    update rows `u : [E, C]`. -/
abbrev addRowsDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update `(e, g)` lands at entry `(r, f)` exactly when the row number `idx[e]`, read signed, is `r`, and `g = f`. -/
theorem addRows_lands {N C E w : Nat} (wf : ScatterDims.WF ⟨2, ![N, C]⟩ ⟨2, ![E, 1]⟩ ⟨2, ![E, C]⟩ [1] [0] [0] 1)
    (idx : IVec ⟨2, ![E, 1]⟩ w) (e : Fin E) (g : Fin C) (r : Fin N) (f : Fin C) :
    (addRowsDims N C E wf).resultIdx? (ix2 e g) idx = some (ix2 r f)
      ↔ (idx (ix2 e (0 : Fin 1))).toInt = (r.val : Int) ∧ g = f := by
  rw [resultIdx?_eq_some_iff]
  have hstart0 : (addRowsDims N C E wf).start (ix2 e g) idx (0 : Fin 2) = (idx (ix2 e (0 : Fin 1))).toInt := by
    unfold ScatterDims.start
    rw [dif_pos (show (0 : Fin 2) ∈ (addRowsDims N C E wf).scatterDimsToOperandDims from List.mem_singleton.mpr rfl)]
    have hsi : (addRowsDims N C E wf).siIdx (ix2 e g) ⟨List.idxOf (0 : Fin 2) (addRowsDims N C E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hstart1 : (addRowsDims N C E wf).start (ix2 e g) idx (1 : Fin 2) = 0 := by
    unfold ScatterDims.start
    rw [dif_neg (show (1 : Fin 2) ∉ (addRowsDims N C E wf).scatterDimsToOperandDims from
      fun h => absurd (congrArg Fin.val (List.mem_singleton.mp h)) Nat.one_ne_zero)]
  have hwin0 : (addRowsDims N C E wf).window (ix2 e g) (0 : Fin 2) = 0 := by
    unfold ScatterDims.window
    rw [dif_neg (show (0 : Fin 2) ∉ (addRowsDims N C E wf).sKept from fun h =>
      (List.mem_filter.mp h).2 |> fun h2 => by simp at h2)]
  have hwin1 : (addRowsDims N C E wf).window (ix2 e g) (1 : Fin 2) = g.val := by
    unfold ScatterDims.window
    rw [dif_pos (show (1 : Fin 2) ∈ (addRowsDims N C E wf).sKept from
      List.mem_filter.mpr ⟨List.mem_finRange _, by simp⟩)]
    rfl
  constructor
  · intro h
    have h0 := h (0 : Fin 2)
    have h1 := h (1 : Fin 2)
    rw [hstart0, hwin0] at h0
    rw [hstart1, hwin1] at h1
    simp only [Nat.cast_zero, add_zero, zero_add] at h0 h1
    exact ⟨h0, Fin.ext (by exact_mod_cast h1)⟩
  · rintro ⟨h0, rfl⟩ a
    match a with
    | ⟨0, _⟩ =>
      show (addRowsDims N C E wf).start (ix2 e g) idx (0 : Fin 2) + (((addRowsDims N C E wf).window (ix2 e g) (0 : Fin 2) : ℕ) : Int) = _
      rw [hstart0, hwin0]
      simp only [Nat.cast_zero, add_zero]
      exact h0
    | ⟨1, _⟩ =>
      show (addRowsDims N C E wf).start (ix2 e g) idx (1 : Fin 2) + (((addRowsDims N C E wf).window (ix2 e g) (1 : Fin 2) : ℕ) : Int) = _
      rw [hstart1, hwin1]
      simp only [zero_add]

/-- Entry `(r, f)` after the accumulating scatter: the operand's entry plus column `f` of every update row whose row
    number is `r`. -/
theorem scatterAdd_addRows_apply {N C E w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (r : Fin N) (f : Fin C) :
    Ideal.hostScatterAdd (addRowsDims N C E wf) x idx upd (ix2 r f)
      = x (ix2 r f) + ∑ e : Fin E, if (idx (ix2 e (0 : Fin 1))).toInt = (r.val : Int) then upd (ix2 e f) else 0 := by
  unfold Ideal.hostScatterAdd
  refine congrArg (x (ix2 r f) + ·) ?_
  rw [Finset.sum_filter, sum_idx2]
  refine Finset.sum_congr rfl fun e _ => ?_
  have hc : ∀ g : Fin C,
      (if (addRowsDims N C E wf).resultIdx? (ix2 e g) idx = some (ix2 r f) then upd (ix2 e g) else 0)
        = if g = f then (if (idx (ix2 e (0 : Fin 1))).toInt = (r.val : Int) then upd (ix2 e f) else 0) else 0 := by
    intro g
    by_cases hg : g = f
    · subst hg
      rw [if_pos rfl]
      exact if_congr ((addRows_lands wf idx e g r g).trans ⟨fun h => h.1, fun h => ⟨h, rfl⟩⟩) rfl rfl
    · rw [if_neg hg, if_neg]
      intro h
      exact hg ((addRows_lands wf idx e g r f).mp h).2
  rw [Finset.sum_congr rfl (fun g _ => hc g), Finset.sum_ite_eq' Finset.univ f]
  exact if_pos (Finset.mem_univ f)

end Idealize.ShloMosaic.RowIndexing

end
-- ==== Proof.LibColumns.lean ====
/-
  General lemmas: the two broadcasts that carry a per-row quantity into a matrix, read at an index. A vector of length
  `n` seen as an `[n, 1]` column reads the vector at the row; an `[n, 1]` column spread over `c` columns reads the
  column at the row, whatever the column asked for.
-/
import Idealize.ShloMosaic.PureOps.Ideal
import Idealize.ShloMosaic.Lib.ValueIdx
import Idealize.ShloMosaic.Lib.Pipeline.Value

noncomputable section

namespace Idealize.ShloMosaic.RowIndexing

open Idealize.ShloMosaic Idealize.ShloMosaic.ValueIdx

variable {α : Type}

/-- Entry `(e, 0)` of a vector seen as a column is the vector's entry `e`. -/
theorem column_apply {n : Nat} (h : (⟨1, ![n]⟩ : Shape).BroadcastsInDim ⟨2, ![n, 1]⟩ ![0])
    (y : (⟨1, ![n]⟩ : Shape).Idx → α) (e : Fin n) (z : Fin 1) :
    broadcastInDim ⟨2, ![n, 1]⟩ ![0] h y (ix2 e z) = y (ix1 e) :=
  broadcastInDim_apply _ h y _ (ix1 e) (fun a => by
    obtain rfl : a = 0 := Subsingleton.elim _ _
    show e.val = if n = 1 then 0 else e.val
    split
    · have := e.isLt; omega
    · rfl)

/-- Entry `(e, f)` of a column spread over `c` columns is the column's entry `(e, 0)`. -/
theorem spread_apply {n c : Nat} (h : (⟨2, ![n, 1]⟩ : Shape).BroadcastsInDim ⟨2, ![n, c]⟩ ![0, 1])
    (y : (⟨2, ![n, 1]⟩ : Shape).Idx → α) (e : Fin n) (f : Fin c) :
    broadcastInDim ⟨2, ![n, c]⟩ ![0, 1] h y (ix2 e f) = y (ix2 e (0 : Fin 1)) :=
  broadcastInDim_apply _ h y _ (ix2 e (0 : Fin 1)) (fun a => by
    match a with
    | ⟨0, _⟩ =>
      show e.val = if n = 1 then 0 else e.val
      split
      · have := e.isLt; omega
      · rfl
    | ⟨1, _⟩ =>
      show (0 : ℕ) = if (1 : ℕ) = 1 then 0 else f.val
      rfl)

end Idealize.ShloMosaic.RowIndexing

end
-- ==== Proof.HostArrays.lean ====
/-
  The arrays the fused region is launched on, as functions of the program's arguments: what the host operations before the
  region leave in the buffers the region's windows stage.

  The degree vector, the wrapped column numbers and the row numbers are computed by the very operations the reference
  uses, so they are the reference's own arrays. The two neighbour sums differ in ONE place: the host side of this program
  rescales the rows first, dis ⊙ v, rounds to a shorter format (the identity on the extended reals) and then gathers the
  rescaled rows by column number, where the reference gathers dis and v separately and multiplies afterwards. Row e of
  either is dis(col e) · v(col e, ·), the column number clamped the same way, so the scattered sums agree, and with them
  Lx and the second neighbour sum. The degree column is a cast [N] → [N,1] here and a broadcast there: the same array.
  The coefficient row is the three scalars side by side, the bias row the bias vector with a leading unit axis.
-/
import proofs.«175926_j86371792323181_2_alg».proof.Proof.KernelIdealRegion
import proofs.«175926_j86371792323181_2_alg».proof.Proof.Gen.ReferenceIdeal.Read
import proofs.«175926_j86371792323181_2_alg».proof.Proof.LibRowIndexing
import proofs.«175926_j86371792323181_2_alg».proof.Proof.LibColumns
import proofs.«175926_j86371792323181_2_alg».proof.Proof.LibLayout
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostSide

open Cert.KernelIdeal Cert.KernelIdeal.Gen Cert.KernelIdeal.Region
open Idealize.ShloMosaic Idealize.ShloMosaic.TcCoe Idealize.SL.Sem Idealize.ShloMosaic.StableHlo
open Idealize.ShloMosaic.ValueIdx Idealize.ShloMosaic.RowIndexing

/-! ## A three-way concatenation's result, with each operand's contents at its own buffer -/

theorem concat3_result' {F : FTy → Type} [FloatOps F] {x a b y : Ref sig .tc}
    (f : ((k : Fin 3) → ((![x, a, b] : Fin 3 → Ref sig .tc) k).ty.Contents (Elt F)) → y.ty.Contents (Elt F)) (hxs hy)
    (G : Valuation τ sig (Elt F)) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) := by
  rw [nary_result]; congr 1; funext k; fin_cases k <;> rfl

/-! ## The two forms of the degree column, and the two orders of rescaling and gathering -/

/-- A vector seen as a column: by a cast or by a broadcast along a new unit axis, the same array. -/
theorem column_forms {α : Type} (d : S100000.Idx → α) (h1 : S100000.ShapeCasts S100000x1) :
    shapeCast S100000x1 d h1
      = broadcastInDim Cert.ReferenceIdeal.S100000x1 ![0] Cert.ReferenceIdeal.Gen.bcast_S100000_S100000x1_0 d := by
  funext ij
  obtain ⟨i, u, rfl⟩ : ∃ (i : Fin 100000) (u : Fin 1), ij = ix2 i u := ⟨ij 0, ij 1, eq_ix2 ij⟩
  rw [Cert.Lib.shapeCast_a_a1_apply, column_apply]

/-- Rows rescaled and then gathered are the gathered rows rescaled by the gathered factors: at the extended reals, where
    the change of format on either side of the gather is the identity, row e of both is dis(r) · v(r, ·), r the clamped
    row number the index column holds at e. -/
theorem scaled_rows_gathered (dis : FVec Ideal S100000 .f32) (v : FVec Ideal S100000x128 .f32) (idx : IVec S1600000x1 32)
    (hb : S100000x1.BroadcastsInDim S100000x128 ![0, 1]) (h0 : S100000.BroadcastsInDim S100000x1 ![0])
    (hlt : FTy.bits .bf16 < FTy.bits .f32) :
    extf .f32 (Host.gather gather_S100000x128_S1600000x1_S1600000x128_1_0_n_n_0_1_1128
        (truncf .bf16 (mulf (broadcastInDim S100000x128 ![0, 1] hb (broadcastInDim S100000x1 ![0] h0 dis)) v) hlt) idx) hlt
      = mulf (broadcastInDim Cert.ReferenceIdeal.S1600000x128 ![0, 1] Cert.ReferenceIdeal.Gen.bcast_S1600000x1_S1600000x128_0_1
          (broadcastInDim Cert.ReferenceIdeal.S1600000x1 ![0] Cert.ReferenceIdeal.Gen.bcast_S1600000_S1600000x1_0
            (Host.gather Cert.ReferenceIdeal.gather_S100000_S1600000x1_S1600000_n_0_n_n_0_1_1 dis idx)))
          (Host.gather Cert.ReferenceIdeal.gather_S100000x128_S1600000x1_S1600000x128_1_0_n_n_0_1_1128 v idx) := by
  funext ef
  obtain ⟨e, f, rfl⟩ : ∃ (e : Fin 1600000) (f : Fin 128), ef = ix2 e f := ⟨ef 0, ef 1, eq_ix2 ef⟩
  rw [extf_apply, mulf_apply]
  refine (gather_rows_apply (N := 100000) (C := 128) (E := 1600000) (by decide)
    Cert.KernelIdeal.Gen.gather_S100000x128_S1600000x1_S1600000x128_1_0_n_n_0_1_1128_wf _ idx e f).trans ?_
  rw [truncf_apply, mulf_apply, spread_apply, column_apply]
  refine (congrArg₂ (· * ·) ?_ ?_).symm
  · rw [spread_apply, column_apply]
    exact gather_pick_apply (N := 100000) (E := 1600000) (by decide)
      Cert.ReferenceIdeal.Gen.gather_S100000_S1600000x1_S1600000_n_0_n_n_0_1_1_wf dis idx e
  · exact gather_rows_apply (N := 100000) (C := 128) (E := 1600000) (by decide)
      Cert.ReferenceIdeal.Gen.gather_S100000x128_S1600000x1_S1600000x128_1_0_n_n_0_1_1128_wf v idx e f

/-! ## One application of the Laplacian, in this program's arrangement and in the reference's -/

/-- The neighbour sum as this program's host side computes it: rows rescaled, rounded, gathered, widened, scattered. -/
def aggHere (dis : FVec Ideal S100000 .f32) (v : FVec Ideal S100000x128 .f32) (rows idx : IVec S1600000x1 32)
    (z : FVec Ideal S100000x128 .f32) : FVec Ideal S100000x128 .f32 :=
  Host.scatterAdd scatter_S100000x128_S1600000x1_S1600000x128_1_0_0_1 z rows
    (extf .f32 (Host.gather gather_S100000x128_S1600000x1_S1600000x128_1_0_n_n_0_1_1128
      (truncf .bf16 (mulf (broadcastInDim S100000x128 ![0, 1] bcast_S100000x1_S100000x128_0_1
        (shapeCast S100000x1 dis shapeCasts_S100000_S100000x1)) v) bitsLt_bf16_f32) idx) bitsLt_bf16_f32)

/-- The neighbour sum as the reference computes it: factors and rows gathered separately, multiplied, scattered. -/
def aggThere (dis : FVec Ideal S100000 .f32) (v : FVec Ideal S100000x128 .f32) (rows idx : IVec S1600000x1 32)
    (z : FVec Ideal S100000x128 .f32) : FVec Ideal S100000x128 .f32 :=
  Host.scatterAdd Cert.ReferenceIdeal.scatter_S100000x128_S1600000x1_S1600000x128_1_0_0_1 z rows
    (mulf (broadcastInDim Cert.ReferenceIdeal.S1600000x128 ![0, 1] Cert.ReferenceIdeal.Gen.bcast_S1600000x1_S1600000x128_0_1
        (broadcastInDim Cert.ReferenceIdeal.S1600000x1 ![0] Cert.ReferenceIdeal.Gen.bcast_S1600000_S1600000x1_0
          (Host.gather Cert.ReferenceIdeal.gather_S100000_S1600000x1_S1600000_n_0_n_n_0_1_1 dis idx)))
      (Host.gather Cert.ReferenceIdeal.gather_S100000x128_S1600000x1_S1600000x128_1_0_n_n_0_1_1128 v idx))

theorem agg_forms (dis : FVec Ideal S100000 .f32) (v : FVec Ideal S100000x128 .f32) (rows idx : IVec S1600000x1 32)
    (z : FVec Ideal S100000x128 .f32) : aggHere dis v rows idx z = aggThere dis v rows idx z := by
  unfold aggHere aggThere
  rw [column_forms, scaled_rows_gathered]
  rfl

/-- v − dis ⊙ (agg + dis ⊙ v), the degree column a cast of the degree vector. -/
def lapHere (dis : FVec Ideal S100000 .f32) (v agg : FVec Ideal S100000x128 .f32) : FVec Ideal S100000x128 .f32 :=
  subf v (mulf (broadcastInDim S100000x128 ![0, 1] bcast_S100000x1_S100000x128_0_1
      (shapeCast S100000x1 dis shapeCasts_S100000_S100000x1))
    (addf agg (mulf (broadcastInDim S100000x128 ![0, 1] bcast_S100000x1_S100000x128_0_1
      (shapeCast S100000x1 dis shapeCasts_S100000_S100000x1)) v)))

/-- The same, the degree column a broadcast of the degree vector along a new unit axis. -/
def lapThere (dis : FVec Ideal S100000 .f32) (v agg : FVec Ideal S100000x128 .f32) : FVec Ideal S100000x128 .f32 :=
  subf v (mulf (broadcastInDim Cert.ReferenceIdeal.S100000x128 ![0, 1] Cert.ReferenceIdeal.Gen.bcast_S100000x1_S100000x128_0_1
      (broadcastInDim Cert.ReferenceIdeal.S100000x1 ![0] Cert.ReferenceIdeal.Gen.bcast_S100000_S100000x1_0 dis))
    (addf agg (mulf (broadcastInDim Cert.ReferenceIdeal.S100000x128 ![0, 1] Cert.ReferenceIdeal.Gen.bcast_S100000x1_S100000x128_0_1
      (broadcastInDim Cert.ReferenceIdeal.S100000x1 ![0] Cert.ReferenceIdeal.Gen.bcast_S100000_S100000x1_0 dis)) v)))

theorem lap_forms (dis : FVec Ideal S100000 .f32) (v agg : FVec Ideal S100000x128 .f32) :
    lapHere dis v agg = lapThere dis v agg := by
  unfold lapHere lapThere
  rw [column_forms]

/-! ## The region's arrays -/

variable (m : (ℓ : Loc nD τ sig) → Buf (Elt Ideal) ℓ)

/-- One pass over the host operations before the region: each buffer's contents as the operations' term. -/
local macro "host_results" : tactic =>
  `(tactic| (simp (disch := decide) only [after_cons, after_nil, nullary_result', unary_result', binary_result',
      ternary_result', reshape_result', concat3_result', nullary_result_ne', unary_result_ne', binary_result_ne',
      ternary_result_ne', reshape_result_ne', nary_result_ne']))

open Cert.ReferenceIdeal.Read in
/-- The region's second window holds the reference's Lx. -/
theorem lx_array (c : Dev nD) : (V m c main_v31 : S100000x128.Idx → EReal)
    = val_main_v38 (F := Ideal) (m ((c : Thread nD τ).loc main_arg0)) (m ((c : Thread nD τ).loc main_arg1)) := by
  have h1 : (V m c main_v31 : S100000x128.Idx → EReal)
      = lapHere (val_main_v10 (F := Ideal) (m ((c : Thread nD τ).loc main_arg1))) (m ((c : Thread nD τ).loc main_arg0))
          (aggHere (val_main_v10 (F := Ideal) (m ((c : Thread nD τ).loc main_arg1))) (m ((c : Thread nD τ).loc main_arg0))
            (val_main_v29 (F := Ideal) (m ((c : Thread nD τ).loc main_arg1))) (val_main_v24 (F := Ideal) (m ((c : Thread nD τ).loc main_arg1)))
            (val_main_v28 (F := Ideal))) := by
    dsimp only [V, hostOps0]
    host_results
    rfl
  rw [h1, lap_forms, agg_forms]
  rfl

open Cert.ReferenceIdeal.Read in
/-- The region's third window holds the neighbour sum inside the reference's second Laplacian. -/
theorem agg2_array (c : Dev nD) : (V m c main_v45 : S100000x128.Idx → EReal)
    = val_main_v58 (F := Ideal) (m ((c : Thread nD τ).loc main_arg0)) (m ((c : Thread nD τ).loc main_arg1)) := by
  have h1 : (V m c main_v45 : S100000x128.Idx → EReal)
      = aggHere (val_main_v10 (F := Ideal) (m ((c : Thread nD τ).loc main_arg1)))
          (lapHere (val_main_v10 (F := Ideal) (m ((c : Thread nD τ).loc main_arg1))) (m ((c : Thread nD τ).loc main_arg0))
            (aggHere (val_main_v10 (F := Ideal) (m ((c : Thread nD τ).loc main_arg1))) (m ((c : Thread nD τ).loc main_arg0))
              (val_main_v29 (F := Ideal) (m ((c : Thread nD τ).loc main_arg1))) (val_main_v24 (F := Ideal) (m ((c : Thread nD τ).loc main_arg1)))
              (val_main_v28 (F := Ideal))))
          (val_main_v57 (F := Ideal) (m ((c : Thread nD τ).loc main_arg1))) (val_main_v52 (F := Ideal) (m ((c : Thread nD τ).loc main_arg1)))
          (val_main_v56 (F := Ideal)) := by
    dsimp only [V, hostOps0]
    host_results
    rfl
  rw [h1, agg_forms, lap_forms, agg_forms]
  rfl

open Cert.ReferenceIdeal.Read in
/-- The region's fourth window, the degree column, holds the reference's inverse square-root degrees. -/
theorem degree_column (c : Dev nD) (i : Fin 100000) : (V m c main_v11 : S100000x1.Idx → EReal) (ix2 i (0 : Fin 1))
    = val_main_v10 (F := Ideal) (m ((c : Thread nD τ).loc main_arg1)) (ix1 i) := by
  have h1 : (V m c main_v11 : S100000x1.Idx → EReal)
      = shapeCast S100000x1 (val_main_v10 (F := Ideal) (m ((c : Thread nD τ).loc main_arg1))) shapeCasts_S100000_S100000x1 := by
    dsimp only [V, hostOps0]
    host_results
    rfl
  rw [h1]
  exact Cert.Lib.shapeCast_a_a1_apply _ _ i 0

/-- The region's sixth window, the bias row, holds the bias vector. -/
theorem bias_row (c : Dev nD) (j : Fin 128) : (V m c main_v51 : S1x128.Idx → EReal) (ix2 (0 : Fin 1) j)
    = (m ((c : Thread nD τ).loc main_arg3) : S128.Idx → EReal) (ix1 j) := by
  have h1 : (V m c main_v51 : S1x128.Idx → EReal)
      = shapeCast S1x128 (m ((c : Thread nD τ).loc main_arg3) : S128.Idx → EReal) shapeCasts_S128_S1x128 := by
    dsimp only [V, hostOps0]
    host_results
    rfl
  rw [h1]
  exact shapeCast_a_1a_apply _ _ 0 j

/-- The region's seventh window, the coefficient row, holds the three scalars a, b, c side by side. -/
theorem coef_row (c : Dev nD) :
    (V m c main_v50 : S1x3.Idx → EReal) (ix2 (0 : Fin 1) (0 : Fin 3)) = (m ((c : Thread nD τ).loc main_arg4) : S_.Idx → EReal) ix0
    ∧ (V m c main_v50 : S1x3.Idx → EReal) (ix2 (0 : Fin 1) (1 : Fin 3)) = (m ((c : Thread nD τ).loc main_arg5) : S_.Idx → EReal) ix0
    ∧ (V m c main_v50 : S1x3.Idx → EReal) (ix2 (0 : Fin 1) (2 : Fin 3)) = (m ((c : Thread nD τ).loc main_arg6) : S_.Idx → EReal) ix0 := by
  have h1 : (V m c main_v50 : S1x3.Idx → EReal) = shapeCast S1x3 (concatenate S3 0
      [⟨S1, broadcastInDim S1 ![] bcast_S_S1 (m ((c : Thread nD τ).loc main_arg4) : S_.Idx → EReal)⟩,
       ⟨S1, broadcastInDim S1 ![] bcast_S_S1 (m ((c : Thread nD τ).loc main_arg5) : S_.Idx → EReal)⟩,
       ⟨S1, broadcastInDim S1 ![] bcast_S_S1 (m ((c : Thread nD τ).loc main_arg6) : S_.Idx → EReal)⟩]
      concatenates_S1_S1_S1_S3_d0) shapeCasts_S3_S1x3 := by
    dsimp only [V, hostOps0]
    host_results
    rfl
  have hb : ∀ a : S_.Idx → EReal, broadcastInDim S1 ![] bcast_S_S1 a (ix1 (0 : Fin 1)) = a ix0 := fun a =>
    broadcastInDim_apply _ bcast_S_S1 a _ ix0 (fun d => d.elim0)
  rw [h1]
  refine ⟨?_, ?_, ?_⟩
  · rw [shapeCast_a_1a_apply]
    exact (concatenate_apply_piece (0 : Fin S3.rank) _ _ (ix1 (0 : Fin 3)) 0 (by show (0 : ℕ) < 3; decide) S1 _ rfl rfl 0 rfl (ix1 (0 : Fin 1))
      (fun b hb => absurd (Subsingleton.elim _ _) hb) rfl).trans (hb _)
  · rw [shapeCast_a_1a_apply]
    exact (concatenate_apply_piece (0 : Fin S3.rank) _ _ (ix1 (1 : Fin 3)) 1 (by show (1 : ℕ) < 3; decide) S1 _ rfl rfl 1 rfl (ix1 (0 : Fin 1))
      (fun b hb => absurd (Subsingleton.elim _ _) hb) rfl).trans (hb _)
  · rw [shapeCast_a_1a_apply]
    exact (concatenate_apply_piece (0 : Fin S3.rank) _ _ (ix1 (2 : Fin 3)) 2 (by show (2 : ℕ) < 3; decide) S1 _ rfl rfl 2 rfl (ix1 (0 : Fin 1))
      (fun b hb => absurd (Subsingleton.elim _ _) hb) rfl).trans (hb _)

end Cert.KernelIdeal.HostSide

end
-- ==== Proof.ReferenceEntries.lean ====
/-
  The reference's result, entry by entry, is the region's function `Cert.Spectral.regionOutAt` of the reference's own
  intermediate arrays: x, its Lx (the array it calls L_matmul(x)), the neighbour sum inside its second L_matmul, and — for
  the degree column, the bias row and the coefficient row, which the reference never builds as arrays — ANY arrays whose
  entries are the reference's inverse square-root degrees, its bias and its three scalars.

  Entry (i, j) of the reference is Σ_k comb(i,k)·W(k,j) + bias(j) with comb = (a·L²x + b·Lx) + c·x and
  L²x = Lx − d·(agg + d·Lx), d(i) read through the reference's two broadcasts of the degree vector: the same grouping as
  the region's function, so the two terms are equal without any law of arithmetic.
-/
import proofs.«175926_j86371792323181_2_alg».proof.Proof.Gen.ReferenceIdeal.Read
import proofs.«175926_j86371792323181_2_alg».proof.Proof.RegionSpec

noncomputable section

open scoped BigOperators

namespace Cert.Spectral

open Idealize.ShloMosaic Idealize.ShloMosaic.ValueIdx
open Cert.ReferenceIdeal Cert.ReferenceIdeal.Read

/-- Entry (i, j) of the reference's result. -/
theorem reference_at
    (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 x5 x6 : (⟨S_, .f32⟩ : BufTy).Contents (Elt Ideal))
    (D : NodeCol.Idx → EReal) (B : BiasRow.Idx → EReal) (C : CoefRow.Idx → EReal)
    (hD : ∀ i : Fin 100000, D (ix2 i (0 : Fin 1)) = val_main_v10 (F := Ideal) x1 (ix1 i))
    (hB : ∀ j : Fin 128, B (ix2 (0 : Fin 1) j) = x3 (ix1 j))
    (hC0 : C (ix2 (0 : Fin 1) (0 : Fin 3)) = x4 ix0) (hC1 : C (ix2 (0 : Fin 1) (1 : Fin 3)) = x5 ix0)
    (hC2 : C (ix2 (0 : Fin 1) (2 : Fin 3)) = x6 ix0)
    (i : Fin 100000) (j : Fin 128) :
    val_main_v78 (F := Ideal) x0 x1 x2 x3 x4 x5 x6 (ix2 i j)
      = regionOutAt x0 (val_main_v38 (F := Ideal) x0 x1) (val_main_v58 (F := Ideal) x0 x1) D x2 B C i j := by
  have hl : ∀ k : Fin 128, lidx_main_v75 (ix2 i j) k = ix2 i k := fun k => funext fun a => Fin.ext (by
    match a with
    | ⟨0, _⟩ => rfl
    | ⟨1, _⟩ => rfl)
  have hr : ∀ k : Fin 128, ridx_main_v75 (ix2 i j) k = ix2 k j := fun k => funext fun a => Fin.ext (by
    match a with
    | ⟨0, _⟩ => rfl
    | ⟨1, _⟩ => rfl)
  have hb : idx_main_v76 (idx_main_v77 (ix2 i j)) = ix1 j := funext fun a => Fin.ext (by
    match a with
    | ⟨0, _⟩ => rfl)
  have hd1 : ∀ k : Fin 128, idx_main_v59 (idx_main_v64 (ix2 i k)) = ix1 i := fun k => funext fun a => Fin.ext (by
    match a with
    | ⟨0, _⟩ => rfl)
  have hd2 : ∀ k : Fin 128, idx_main_v60 (idx_main_v61 (ix2 i k)) = ix1 i := fun k => funext fun a => Fin.ext (by
    match a with
    | ⟨0, _⟩ => rfl)
  rw [val_main_v78_apply, val_main_v75_apply, val_main_v77_apply, val_main_v76_apply, hb]
  unfold regionOutAt
  rw [hB j]
  refine congrArg (· + x3 (ix1 j)) (Finset.sum_congr rfl fun k _ => ?_)
  rw [hl k, hr k]
  refine congrArg (· * x2 (ix2 k j)) ?_
  rw [val_main_v74_apply, val_main_v71_apply, val_main_v68_apply, val_main_v67_apply, val_main_v66_apply,
    val_main_v65_apply, val_main_v64_apply, val_main_v59_apply, val_main_v63_apply, val_main_v62_apply,
    val_main_v61_apply, val_main_v60_apply, val_main_v70_apply, val_main_v69_apply, val_main_v73_apply,
    val_main_v72_apply, hd1 k, hd2 k]
  unfold combAt
  rw [hD i, hC0, hC1, hC2]
  rfl

end Cert.Spectral

end
-- ==== Proof.ResultsAgree.lean ====
/-
  The two programs' results are one array.

  The reference's result at entry (i, j) is the region's function of x, of the reference's own Lx and second neighbour
  sum, and of any degree column, bias row and coefficient row with the reference's entries; the arrays the fused region
  is launched on are exactly such arrays (the host side's Lx and neighbour sum ARE the reference's, the degree column, the
  bias row and the coefficient row have the reference's entries), and the region's output array is the region's function
  of them.
-/
import proofs.«175926_j86371792323181_2_alg».proof.Proof.RegionValue
import proofs.«175926_j86371792323181_2_alg».proof.Proof.HostArrays
import proofs.«175926_j86371792323181_2_alg».proof.Proof.ReferenceEntries

noncomputable section

namespace Cert.KernelIdeal.Agreement

open Cert.KernelIdeal Cert.KernelIdeal.Gen Cert.KernelIdeal.Region Cert.Spectral
open Idealize.ShloMosaic Idealize.ShloMosaic.TcCoe Idealize.SL.Sem Idealize.ShloMosaic.ValueIdx

variable (m : (ℓ : Loc nD τ sig) → Buf (Elt Ideal) ℓ)

/-- The reference's result array, computed from this program's arguments, is the region's output array. -/
theorem result_eq (c : Dev nD) :
    Cert.ReferenceIdeal.Read.val_main_v78 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6))
      = RegionValue.outArr m c := by
  funext ij
  obtain ⟨i, j, rfl⟩ : ∃ (i : Fin 100000) (j : Fin 128), ij = ix2 i j := ⟨ij 0, ij 1, eq_ix2 ij⟩
  obtain ⟨hc0, hc1, hc2⟩ := HostSide.coef_row m c
  refine (reference_at _ _ _ _ _ _ _ (V m c main_v11 : NodeCol.Idx → EReal) (V m c main_v51 : BiasRow.Idx → EReal)
    (V m c main_v50 : CoefRow.Idx → EReal) (HostSide.degree_column m c) (HostSide.bias_row m c) hc0 hc1 hc2 i j).trans ?_
  unfold RegionValue.outArr
  rw [regionOut_apply, HostSide.lx_array, HostSide.agg2_array, V_main_arg0, V_main_arg2]

end Cert.KernelIdeal.Agreement

end
-- ==== Proof.lean ====
/-
  The certificate: three frames, the (empty) idealization ledger, and the equality of the two results on the extended reals.

  The program applies the symmetric-normalised graph Laplacian twice on the host — degrees by a scatter of ones, the
  neighbour sums by gather and scatter over the edge list — and finishes in one fused region over twenty row blocks:
  L²x = Lx − d ⊙ (agg + d ⊙ Lx), the polynomial a·L²x + b·Lx + c·x, the product with the weights and the bias. The reference
  does all of it on the host. On the extended reals the only differences are the order of rescaling and gathering in the
  neighbour sums (row by row the same product), the degree column built by a cast instead of a broadcast, the changes of
  float format (identities), and the product computed block by block on the matrix unit instead of at once: every entry of
  the result is the same sum of the same products in the same grouping, so no law of arithmetic and no finiteness is used.

  Frames: each kernel program runs to the end, faults nowhere and leaves its arguments alone because its one region does —
  the pipeline's launch theorem over the region's proof data: what every staging buffer holds after the body at each of the
  twenty points — and no host operation before it writes an argument; the reference's frame is its run with the result dropped.
-/
import proofs.«175926_j86371792323181_2_alg».proof.Defs
import proofs.«175926_j86371792323181_2_alg».proof.Proof.Gen.Kernel
import proofs.«175926_j86371792323181_2_alg».proof.Proof.Gen.KernelIdeal
import proofs.«175926_j86371792323181_2_alg».proof.Proof.Gen.ReferenceIdeal
import proofs.«175926_j86371792323181_2_alg».proof.Proof.Gen.Pre_finite_inputs
import proofs.«175926_j86371792323181_2_alg».proof.Proof.Gen.ReferenceIdeal.Run
import proofs.«175926_j86371792323181_2_alg».proof.Proof.Gen.ReferenceIdeal.Read
import proofs.«175926_j86371792323181_2_alg».proof.Proof.KernelFrame
import proofs.«175926_j86371792323181_2_alg».proof.Proof.KernelIdealFrame
import proofs.«175926_j86371792323181_2_alg».proof.Proof.RegionValue
import proofs.«175926_j86371792323181_2_alg».proof.Proof.ResultsAgree

noncomputable section

namespace Cert.Proof

open Idealize.ShloMosaic Idealize.SL.Sem

theorem frame_kernel : Cert.frame_Kernel := fun m ρ _ => Cert.Kernel.Region.frame m ρ

theorem frame_kernel_ideal : Cert.frame_KernelIdeal := fun m ρ _ => Cert.KernelIdeal.Region.frame m ρ

theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- From memories that agree on the arguments both programs end, the kernel program's result array at the region's
    function of the arrays its host side built, the reference's at its composed term: one array. -/
theorem algebraic : Cert.algebraic_KernelIdeal_ReferenceIdeal := by
  intro m ρ m' ρ' _ hagree
  refine ⟨fun c => Cert.KernelIdeal.RegionValue.outArr m c, Cert.KernelIdeal.RegionValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [Cert.ReferenceIdeal.Read.val_main_v78_eq, e0, e1, e2, e3, e4, e5, e6]
  exact Cert.KernelIdeal.Agreement.result_eq m c

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
